-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000x8 : Shape := ⟨2, ![100000, 8]⟩
abbrev S136x128 : Shape := ⟨2, ![136, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x8 : S_.BroadcastsInDim S100000x8 (![] : Fin 0 → Fin S100000x8.rank)
  reducesTo_S100000x8_S_d0_1 : S100000x8.ReducesTo [0, 1] S_
  bcast_S_S136x128 : S_.BroadcastsInDim S136x128 (![] : Fin 0 → Fin S136x128.rank)
  reducesTo_S136x128_S_d0_1 : S136x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S128x3 .f32) (main_arg6 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x3 .f32 := Host.absf main_arg5
  let main_cst_6 : FVec F S_ .f32 := constant S_ .f32 0x7F800000#32
  let main_v20 : FVec F S128x3 .f32 := broadcastInDim S128x3 ![] bcast_S_S128x3 main_cst_6
  let main_v21 : IVec S128x3 1 := cmpf .olt main_v19 main_v20
  let main_c_7 : IVec S_ 1 := constantI S_ 1 1#1
  let main_v22 : IVec S_ 1 := (fun x v => Host.reduce IntOp.andi x v reducesTo_S128x3_S_d0_1 h_S_) main_v21 main_c_7
  let main_v23 : IVec S_ 1 := andi main_v18 main_v22
  let main_v24 : FVec F S3 .f32 := Host.absf main_arg6
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S100000x8 .f32) (main_arg3 : FVec F S136x128 .f32) (main_arg4 : FVec F S128 .f32) (main_arg5 : FVec F S128x3 .f32) (main_arg6 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x8 .f32 := Host.absf main_arg2
  let main_cst_0 : FVec F S_ .f32 := constant S_ .f32 0x7F800000#32
  let main_v5 : FVec F S100000x8 .f32 := broadcastInDim S100000x8 ![] bcast_S_S100000x8 main_cst_0
  let main_v6 : IVec S100000x8 1 := cmpf .olt main_v4 main_v5
  let main_c_1 : IVec S_ 1 := constantI S_ 1 1#1
  let main_v7 : IVec S_ 1 := (fun x v => Host.reduce IntOp.andi x v reducesTo_S100000x8_S_d0_1 h_S_) main_v6 main_c_1
  let main_v8 : IVec S_ 1 := andi main_v3 main_v7
  let main_v9 : FVec F S136x128 .f32 := Host.absf main_arg3
  let main_cst_2 : FVec F S_ .f32 := constant S_ .f32 0x7F800000#32
  let main_v10 : FVec F S136x128 .f32 := broadcastInDim S136x128 ![] bcast_S_S136x128 main_cst_2
  let main_v11 : IVec S136x128 1 := cmpf .olt main_v9 main_v10
  let main_c_3 : IVec S_ 1 := constantI S_ 1 1#1
  let main_v12 : IVec S_ 1 := (fun x v => Host.reduce IntOp.andi x v reducesTo_S136x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S100000x8 : Shape := ⟨2, ![100000, 8]⟩
abbrev S136x128 : Shape := ⟨2, ![136, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S128x128 : Shape := ⟨2, ![128, 128]⟩
abbrev S8x128 : Shape := ⟨2, ![8, 128]⟩
abbrev S5000x128 : Shape := ⟨2, ![5000, 128]⟩
abbrev S5000x8 : Shape := ⟨2, ![5000, 8]⟩
abbrev S5000x1 : Shape := ⟨2, ![5000, 1]⟩
abbrev S1700000x128 : Shape := ⟨2, ![1700000, 128]⟩
abbrev S1x128 : Shape := ⟨2, ![1, 128]⟩
abbrev S100000x3 : Shape := ⟨2, ![100000, 3]⟩
abbrev S5000x3 : Shape := ⟨2, ![5000, 3]⟩
abbrev S1700000x3 : Shape := ⟨2, ![1700000, 3]⟩
abbrev S1x3 : Shape := ⟨2, ![1, 3]⟩

abbrev nBuf : Space → Nat
  | .hbm => 67
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x8, .f32⟩
  | .hbm, ⟨3, _⟩ => ⟨S136x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S128x128, .f32⟩
  | .hbm, ⟨30, _⟩ => ⟨S8x128, .f32⟩
  | .hbm, ⟨31, _⟩ => ⟨S100000x128, .bf16⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000x128, .bf16⟩
  | .hbm, ⟨41, _⟩ => ⟨S1700000x128, .f32⟩
  | .hbm, ⟨42, _⟩ => ⟨S_, .f32⟩
  | .hbm, ⟨43, _⟩ => ⟨S100000x128, .f32⟩
  | .hbm, ⟨44, _⟩ => ⟨S1700000x1, .i32⟩
  | .hbm, ⟨45, _⟩ => ⟨S100000x128, .f32⟩
  | .hbm, ⟨46, _⟩ => ⟨S1x128, .f32⟩
  | .hbm, ⟨47, _⟩ => ⟨S100000x128, .f32⟩
  | .hbm, ⟨48, _⟩ => ⟨S100000x3, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x3, .f32⟩
  | .hbm, ⟨58, _⟩ => ⟨S_, .f32⟩
  | .hbm, ⟨59, _⟩ => ⟨S100000x3, .f32⟩
  | .hbm, ⟨60, _⟩ => ⟨S1700000x1, .i32⟩
  | .hbm, ⟨61, _⟩ => ⟨S100000x3, .f32⟩
  | .hbm, ⟨62, _⟩ => ⟨S100000x3, .f32⟩
  | .hbm, ⟨63, _⟩ => ⟨S100000x3, .f32⟩
  | .hbm, ⟨64, _⟩ => ⟨S1x3, .f32⟩
  | .hbm, ⟨65, _⟩ => ⟨S100000x3, .f32⟩
  | .hbm, ⟨66, _⟩ => ⟨S100000x3, .f32⟩
  | .local _ .vmem, ⟨0, _⟩ => ⟨S5000x128, .f32⟩
  | .local _ .vmem, ⟨1, _⟩ => ⟨S5000x128, .f32⟩
  | .local _ .vmem, ⟨2, _⟩ => ⟨S5000x8, .f32⟩
  | .local _ .vmem, ⟨3, _⟩ => ⟨S5000x8, .f32⟩
  | .local _ .vmem, ⟨4, _⟩ => ⟨S128x128, .f32⟩
  | .local _ .vmem, ⟨5, _⟩ => ⟨S8x128, .f32⟩
  | .local _ .vmem, ⟨6, _⟩ => ⟨S5000x1, .f32⟩
  | .local _ .vmem, ⟨7, _⟩ => ⟨S5000x1, .f32⟩
  | .local _ .vmem, ⟨8, _⟩ => ⟨S5000x128, .bf16⟩
  | .local _ .vmem, ⟨9, _⟩ => ⟨S5000x128, .bf16⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x3, .f32⟩
  | .local _ .vmem, ⟨20, _⟩ => ⟨S5000x1, .f32⟩
  | .local _ .vmem, ⟨21, _⟩ => ⟨S5000x1, .f32⟩
  | .local _ .vmem, ⟨22, _⟩ => ⟨S5000x3, .f32⟩
  | .local _ .vmem, ⟨23, _⟩ => ⟨S5000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_5 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  slices_S136x128_S128x128_0_0 : S136x128.Slices ![0, 0] S128x128
  slices_S136x128_S8x128_128_0 : S136x128.Slices ![128, 0] S8x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S5000x8_S5000x8_0_0 : ∀ a, (![0, 0] : Fin 2 → Nat) a + S5000x8.size a ≤ S5000x8.size a
  h_S5000x8 : 0 < S5000x8.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x3_S128x3_0_0 : ∀ a, (![0, 0] : Fin 2 → Nat) a + S128x3.size a ≤ S128x3.size a
  h_S128x3 : 0 < S128x3.numel
  broadcasts_S5000x1_S5000x3 : S5000x1.Broadcasts S5000x3
  inb_S5000x3_S5000x3_0_0 : ∀ a, (![0, 0] : Fin 2 → Nat) a + S5000x3.size a ≤ S5000x3.size a
  h_S5000x3 : 0 < S5000x3.numel
  bcast_S_S100000x3 : S_.BroadcastsInDim S100000x3 (![] : Fin 0 → Fin S100000x3.rank)
  bcast_S100000x1_S100000x3_0_1 : S100000x1.BroadcastsInDim S100000x3 (![0, 1] : Fin 2 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  dot_S5000x8_S8x128_S5000x128_1_0_0_1_n_n_wf : DotDims.WF S5000x8 S8x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x3_S5000x3_1_0_0_1_n_n_wf : DotDims.WF S5000x128 S128x3 S5000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x8.size a ≤ S100000x8.size a
  hwx0_1 : ∀ i : grid0.Coords, EltTy.bits .f32 = 32 ∨ (Rect.block (s := S100000x8) S5000x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .bf16 = 32 ∨ (Rect.block (s := S100000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x3.size a ≤ S128x3.size a
  hwx2_1 : ∀ i : grid2.Coords, EltTy.bits .f32 = 32 ∨ (Rect.block (s := S128x3) S128x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x3.size a ≤ S100000x3.size a
  hwx2_3 : ∀ i : grid2.Coords, EltTy.bits .f32 = 32 ∨ (Rect.block (s := S100000x3) S5000x3.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x8_S8x128_S5000x128_1_0_0_1_n_n : DotDims S5000x8 S8x128 S5000x128 where
  lhsContracting := [1]
  rhsContracting := [0]
  lhsNonContracting := [0]
  rhsNonContracting := [1]
  lhsBatch := []
  rhsBatch := []
  wf := dot_S5000x8_S8x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v32) S5000x3.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000x8 : Shape := ⟨2, ![100000, 8]⟩
abbrev S136x128 : Shape := ⟨2, ![136, 128]⟩
abbrev S128 : Shape := ⟨1, ![128]⟩
abbrev S128x3 : Shape := ⟨2, ![128, 3]⟩
abbrev S3 : Shape := ⟨1, ![3]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x136 : Shape := ⟨2, ![100000, 136]⟩
abbrev S1700000x128 : Shape := ⟨2, ![1700000, 128]⟩
abbrev S1x128 : Shape := ⟨2, ![1, 128]⟩
abbrev S100000x3 : Shape := ⟨2, ![100000, 3]⟩
abbrev S1700000x3 : Shape := ⟨2, ![1700000, 3]⟩
abbrev S1x3 : Shape := ⟨2, ![1, 3]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000x8, .f32⟩
  | .hbm, ⟨3, _⟩ => ⟨S136x128, .f32⟩
  | .hbm, ⟨4, _⟩ => ⟨S128, .f32⟩
  | .hbm, ⟨5, _⟩ => ⟨S128x3, .f32⟩
  | .hbm, ⟨6, _⟩ => ⟨S3, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x136, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x3, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x3, .f32⟩
  | .hbm, ⟨81, _⟩ => ⟨S1700000x1, .f32⟩
  | .hbm, ⟨82, _⟩ => ⟨S1700000x3, .f32⟩
  | .hbm, ⟨83, _⟩ => ⟨S1700000x3, .f32⟩
  | .hbm, ⟨84, _⟩ => ⟨S_, .f32⟩
  | .hbm, ⟨85, _⟩ => ⟨S100000x3, .f32⟩
  | .hbm, ⟨86, _⟩ => ⟨S1700000x1, .i32⟩
  | .hbm, ⟨87, _⟩ => ⟨S100000x3, .f32⟩
  | .hbm, ⟨88, _⟩ => ⟨S1x3, .f32⟩
  | .hbm, ⟨89, _⟩ => ⟨S100000x3, .f32⟩
  | .hbm, ⟨90, _⟩ => ⟨S100000x3, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_v49 : Ref sig .tc := ⟨.hbm, 71, rfl⟩
abbrev main_c_9 : Ref sig .tc := ⟨.hbm, 72, rfl⟩
abbrev main_v50 : Ref sig .tc := ⟨.hbm, 73, rfl⟩
abbrev main_v51 : Ref sig .tc := ⟨.hbm, 74, rfl⟩
abbrev main_c_10 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  concatenates_S100000x128_S100000x8_S100000x136_d1 : Shape.Concatenates [S100000x128, S100000x8] S100000x136 1
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x3_0_1 : S1700000x1.BroadcastsInDim S1700000x3 (![0, 1] : Fin 2 → Fin S1700000x3.rank)
  bcast_S_S100000x3 : S_.BroadcastsInDim S100000x3 (![] : Fin 0 → Fin S100000x3.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x136_S136x128_S100000x128_1_0_0_1_n_n_wf : DotDims.WF S100000x136 S136x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x3_S100000x3_1_0_0_1_n_n_wf : DotDims.WF S100000x128 S128x3 S100000x3 [1] [0] [0] [1] [] []
  gather_S100000x3_S1700000x1_S1700000x3_1_0_n_n_0_1_13_wf : GatherDims.WF S100000x3 S1700000x1 S1700000x3 [1] [0] [] [0] [] 1 ![1, 3]
  scatter_S100000x3_S1700000x1_S1700000x3_1_0_0_1_wf : ScatterDims.WF S100000x3 S1700000x1 S1700000x3 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x136_S136x128_S100000x128_1_0_0_1_n_n : DotDims S100000x136 S136x128 S100000x128 where
  lhsContracting := [1]
  rhsContracting := [0]
  lhsNonContracting := [0]
  rhsNonContracting := [1]
  lhsBatch := []
  rhsBatch := []
  wf := dot_S100000x136_S136x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf
def gather_S100000x3_S1700000x1_S1700000x3_1_0_n_n_0_1_13 : GatherDims S100000x3 S1700000x1 S1700000x3 where
  offsetDims := [1]
  collapsedSliceDims := [0]
  operandBatchingDims := []
  startIndicesBatchingDims := []
  startIndexMap := [0]
  indexVectorDim := 1
  sliceSizes := ![1, 3]
  wf := gather_S100000x3_S1700000x1_S1700000x3_1_0_n_n_0_1_13_wf
def scatter_S100000x3_S1700000x1_S1700000x3_1_0_0_1 : ScatterDims S100000x3 S1700000x1 S1700000x3 where
  updateWindowDims := [1]
  insertedWindowDims := [0]
  scatterDimsToOperandDims := [0]
  indexVectorDim := 1
  wf := scatter_S100000x3_S1700000x1_S1700000x3_1_0_0_1_wf

class Facts : Prop extends Facts₀ where

variable [Facts]
-- ==== Proof.LibMatmul.lean ====
/-
  A plain matrix product read at an index, over the extended reals.

  For l : [A, K] and r : [K, B], contracted over the one shared axis with no batch axes, entry (a, b) of the
  product is the sum over k of l(a, k) · r(k, b) — for the host's dot product and for the kernel's matrix
  product into a zero accumulator alike. Generic in A, K, B.
-/
import Idealize.ShloMosaic.Lib.ValueIdx
import Idealize.ShloMosaic.PureOps.Ideal.Laws

noncomputable section

open scoped BigOperators

namespace Idealize.ShloMosaic.MatmulIdx

open Idealize.ShloMosaic Idealize.ShloMosaic.ValueIdx

/-- The dimension numbers of l @ r for l : [A, K], r : [K, B]: contract axis 1 of l with axis 0 of r. -/
abbrev mmDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

variable {A K B : Nat} (wf : DotDims.WF ⟨2, ![A, K]⟩ ⟨2, ![K, B]⟩ ⟨2, ![A, B]⟩ [1] [0] [0] [1] [] [])

theorem lhs_row (j : (⟨2, ![A, B]⟩ : Shape).Idx) (q : (mmDims A K B wf).contr.Idx) :
    ((mmDims A K B wf).lhsIdx j q 0).val = (j 0).val := by
  unfold DotDims.lhsIdx
  rw [dif_neg (show ¬(0 : Fin (⟨2, ![A, K]⟩ : Shape).rank) ∈ (mmDims A K B wf).lhsBatch from List.not_mem_nil),
    dif_pos (show (0 : Fin (⟨2, ![A, K]⟩ : Shape).rank) ∈ (mmDims A K B wf).lhsNonContracting from List.mem_singleton.mpr rfl)]
  rfl

theorem lhs_contr (j : (⟨2, ![A, B]⟩ : Shape).Idx) (q : (mmDims A K B wf).contr.Idx) :
    ((mmDims A K B wf).lhsIdx j q 1).val = (q ⟨0, (Nat.zero_lt_one : 0 < (mmDims A K B wf).contr.rank)⟩).val :=
  (mmDims A K B wf).lhsIdx_val_of_single rfl j q

theorem rhs_contr (j : (⟨2, ![A, B]⟩ : Shape).Idx) (q : (mmDims A K B wf).contr.Idx) :
    ((mmDims A K B wf).rhsIdx j q 0).val = (q ⟨0, (Nat.zero_lt_one : 0 < (mmDims A K B wf).contr.rank)⟩).val :=
  (mmDims A K B wf).rhsIdx_val_of_single rfl j q

theorem rhs_col (j : (⟨2, ![A, B]⟩ : Shape).Idx) (q : (mmDims A K B wf).contr.Idx) :
    ((mmDims A K B wf).rhsIdx j q 1).val = (j 1).val := by
  unfold DotDims.rhsIdx
  rw [dif_neg (show ¬(1 : Fin (⟨2, ![K, B]⟩ : Shape).rank) ∈ (mmDims A K B wf).rhsBatch from List.not_mem_nil),
    dif_pos (show (1 : Fin (⟨2, ![K, B]⟩ : Shape).rank) ∈ (mmDims A K B wf).rhsNonContracting from List.mem_singleton.mpr rfl)]
  rfl

/-- The contraction's index set is the K positions of the shared axis: the sum over it is the sum over k. -/
theorem contr_sum (l : (⟨2, ![A, K]⟩ : Shape).Idx → EReal) (r : (⟨2, ![K, B]⟩ : Shape).Idx → EReal) (a : Fin A) (b : Fin B) :
    ∑ q : (mmDims A K B wf).contr.Idx, l ((mmDims A K B wf).lhsIdx (ix2 a b) q) * r ((mmDims A K B wf).rhsIdx (ix2 a b) q)
      = ∑ k : Fin K, l (ix2 a k) * r (ix2 k b) := by
  rw [← Equiv.sum_comp (contrEquiv1 (mmDims A K B wf) K rfl rfl).symm]
  refine Finset.sum_congr rfl fun k _ => ?_
  have hk := contrEquiv1_symm_val (mmDims A K B wf) K rfl rfl k
  have el : (mmDims A K B wf).lhsIdx (ix2 a b) ((contrEquiv1 (mmDims A K B wf) K rfl rfl).symm k) = ix2 a k :=
    funext fun x => Fin.ext (by
      match x with
      | ⟨0, _⟩ => exact lhs_row wf _ _
      | ⟨1, _⟩ => exact (lhs_contr wf _ _).trans hk)
  have er : (mmDims A K B wf).rhsIdx (ix2 a b) ((contrEquiv1 (mmDims A K B wf) K rfl rfl).symm k) = ix2 k b :=
    funext fun x => Fin.ext (by
      match x with
      | ⟨0, _⟩ => exact (rhs_contr wf _ _).trans hk
      | ⟨1, _⟩ => exact rhs_col wf _ _)
  rw [el, er]

/-- The host's dot product at (a, b). -/
theorem dotGeneral_ix2 {φ₁ φ₂ : FTy} (prec : Option ContractPrecision) (sched : HostSchedule)
    (l : FVec Ideal ⟨2, ![A, K]⟩ φ₁) (r : FVec Ideal ⟨2, ![K, B]⟩ φ₂) (a : Fin A) (b : Fin B) :
    FloatOps.dotGeneral (mmDims A K B wf) prec sched l r (ix2 a b) = ∑ k : Fin K, l (ix2 a k) * r (ix2 k b) :=
  (Ideal.dotGeneral_apply _ prec sched l r _).trans (contr_sum wf l r a b)

/-- The kernel's matrix product into a zero accumulator at (a, b). -/
theorem matmul_zero_ix2 {φ₁ φ₂ : FTy} (prec : Option ContractPrecision)
    (l : FVec Ideal ⟨2, ![A, K]⟩ φ₁) (r : FVec Ideal ⟨2, ![K, B]⟩ φ₂) (a : Fin A) (b : Fin B) :
    FloatOps.matmul (mmDims A K B wf) prec l r (constant ⟨2, ![A, B]⟩ .f32 0x00000000#32) (ix2 a b)
      = ∑ k : Fin K, l (ix2 a k) * r (ix2 k b) :=
  (Ideal.matmul_constant_zero_apply _ prec l r _).trans (contr_sum wf l r a b)

end Idealize.ShloMosaic.MatmulIdx

end
-- ==== Proof.LibKeepdims.lean ====
/-
  Two layout readings of a column kept beside a matrix: a vector of length a viewed as an [a, 1] column reads its
  entry at the row, and an [a, 1] column spread over b lanes reads, at (p, c), its entry at row p.
-/
import Idealize.ShloMosaic.Lib.Pipeline.Value
import Idealize.ShloMosaic.Lib.ValueIdx

noncomputable section

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.KernelBlocks.lean ====
/-
  What each of the three kernel bodies stores, read at one entry of its block, over the extended reals
  (a change of float format is the identity there).

  * the first linear layer: row p of the node block times the two weight blocks, the two products added, the sum
    scaled by the node's normalising factor;
  * the bias-and-rectify pass: the aggregated entry scaled by the node's factor, plus the bias of its column, then the
    maximum with zero;
  * the second linear layer: row p times the weight block, scaled by the node's factor.
-/
import proofs.«118779_j61306363183554_2_alg».proof.Proof.Gen.KernelIdeal.Skeleton
import proofs.«118779_j61306363183554_2_alg».proof.Proof.LibMatmul
import proofs.«118779_j61306363183554_2_alg».proof.Proof.LibKeepdims
import Idealize.ShloMosaic.Lib.Pipeline.Value
import Idealize.ShloMosaic.Lib.ValueIdx
import Idealize.ShloMosaic.Lib.ValueLayout

noncomputable section

open scoped BigOperators

namespace Cert.KernelIdeal.Blocks

open Idealize.ShloMosaic Idealize.ShloMosaic.ValueIdx Idealize.ShloMosaic.MatmulIdx
open Cert.KernelIdeal Cert.KernelIdeal.Gen

/-- [5000, 128] by [128, 128] into a zero accumulator, at (p, q). -/
theorem product_node_weight (l : FVec Ideal S5000x128 .bf16) (r : FVec Ideal S128x128 .bf16) (p : Fin 5000) (q : Fin 128) :
    matmul dot_S5000x128_S128x128_S5000x128_1_0_0_1_n_n none l r (constant S5000x128 .f32 0x00000000#32) (ix2 p q)
      = ∑ k : Fin 128, l (ix2 p k) * r (ix2 k q) :=
  matmul_zero_ix2 (A := 5000) (K := 128) (B := 128) _ none l r p q

/-- [5000, 8] by [8, 128] into a zero accumulator, at (p, q). -/
theorem product_material_weight (l : FVec Ideal S5000x8 .bf16) (r : FVec Ideal S8x128 .bf16) (p : Fin 5000) (q : Fin 128) :
    matmul dot_S5000x8_S8x128_S5000x128_1_0_0_1_n_n none l r (constant S5000x128 .f32 0x00000000#32) (ix2 p q)
      = ∑ k : Fin 8, l (ix2 p k) * r (ix2 k q) :=
  matmul_zero_ix2 (A := 5000) (K := 8) (B := 128) _ none l r p q

/-- [5000, 128] by [128, 3] into a zero accumulator, at (p, q). -/
theorem product_hidden_weight (l : FVec Ideal S5000x128 .bf16) (r : FVec Ideal S128x3 .bf16) (p : Fin 5000) (q : Fin 3) :
    matmul dot_S5000x128_S128x3_S5000x3_1_0_0_1_n_n none l r (constant S5000x3 .f32 0x00000000#32) (ix2 p q)
      = ∑ k : Fin 128, l (ix2 p k) * r (ix2 k q) :=
  matmul_zero_ix2 (A := 5000) (K := 128) (B := 3) _ none l r p q

/-- The first linear layer's stored block at (p, q). -/
theorem linear1_apply (x0 : Vec Ideal S5000x128 .f32) (x1 : Vec Ideal S5000x8 .f32) (x2 : Vec Ideal S128x128 .f32)
    (x3 : Vec Ideal S8x128 .f32) (x4 : Vec Ideal S5000x1 .f32) (p : Fin 5000) (q : Fin 128) :
    k0_pay1 (F := Ideal) x0 x1 x2 x3 x4 (ix2 p q)
      = ((∑ k : Fin 128, x0 (ix2 p k) * x2 (ix2 k q)) + ∑ k : Fin 8, x1 (ix2 p k) * x3 (ix2 k q)) * x4 (ix2 p (0 : Fin 1)) := by
  unfold k0_pay1
  simp only [truncf_apply, mulf_apply, addf_apply, shapeCast_self]
  rw [product_node_weight, product_material_weight, broadcastTo_a1_ab_apply]
  simp only [truncf_apply]

/-- The bias-and-rectify pass's stored block at (p, q). -/
theorem biasRelu_apply (x0 : Vec Ideal S5000x128 .f32) (x1 : Vec Ideal S5000x1 .f32) (x2 : Vec Ideal S1x128 .f32)
    (p : Fin 5000) (q : Fin 128) :
    k1_pay1 (F := Ideal) x0 x1 x2 (ix2 p q)
      = max (x0 (ix2 p q) * x1 (ix2 p (0 : Fin 1)) + x2 (ix2 (0 : Fin 1) q)) 0 := by
  unfold k1_pay1
  simp only [maximumf_apply, mulf_apply, addf_apply, shapeCast_self, broadcast_apply]
  rw [broadcastTo_a1_ab_apply, broadcastTo_1b_ab_apply]
  show max _ (Ideal.ofBits .f32 0x00000000#32) = _
  rw [Ideal.ofBits_zero_f32]

/-- The second linear layer's stored block at (p, q). -/
theorem linear2_apply (x0 : Vec Ideal S5000x128 .f32) (x1 : Vec Ideal S128x3 .f32) (x2 : Vec Ideal S5000x1 .f32)
    (p : Fin 5000) (q : Fin 3) :
    k2_pay1 (F := Ideal) x0 x1 x2 (ix2 p q)
      = (∑ k : Fin 128, x0 (ix2 p k) * x1 (ix2 k q)) * x2 (ix2 p (0 : Fin 1)) := by
  unfold k2_pay1
  simp only [mulf_apply, shapeCast_self]
  rw [product_hidden_weight, broadcastTo_a1_ab_apply]
  simp only [truncf_apply]

end Cert.KernelIdeal.Blocks

end
-- ==== Proof.Layer1Array.lean ====
/-
  The first launched region, as one function of the arrays it finds.

  The node rows are cut into 20 blocks of 5000 rows; grid point t loads rows 5000·t … 5000·t + 4999 of the node
  features, of the material parameters and of the normalising column, the two weight blocks whole, and writes back
  the same rows of the result. So entry (n, j) of the result array depends on row n only:
    (Σ_k z(n,k)·Wa(k,j) + Σ_k mat(n,k)·Wb(k,j)) · d(n),
  and the 20 blocks cover all 100000 rows.
-/
import proofs.«118779_j61306363183554_2_alg».proof.Proof.Gen.KernelIdeal.Frame
import proofs.«118779_j61306363183554_2_alg».proof.Proof.KernelBlocks

set_option maxRecDepth 16384

noncomputable section

open scoped BigOperators

namespace Cert.KernelIdeal.Layer1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Entry (n, j) of the scaled first linear layer, from whole arrays. -/
def scaledLinear (z : Vec Ideal S100000x128 .f32) (mt : Vec Ideal S100000x8 .f32) (wa : Vec Ideal S128x128 .f32)
    (wb : Vec Ideal S8x128 .f32) (d : Vec Ideal S100000x1 .f32) : Vec Ideal S100000x128 .bf16 :=
  fun i => ((∑ k : Fin 128, z (ix2 (i 0 : Fin 100000) k) * wa (ix2 k (i 1 : Fin 128)))
    + ∑ k : Fin 8, mt (ix2 (i 0 : Fin 100000) k) * wb (ix2 k (i 1 : Fin 128))) * d (ix2 (i 0 : Fin 100000) (0 : Fin 1))

/-- The printed index maps over the grid: the row-blocked windows move with the point, the weights stay. -/
theorem index_maps : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = win0_5.index t (0 : Fin 2) ∧ win0_4.index t (1 : Fin 2) = 0
    ∧ win0_5.index t (0 : Fin 2) ≤ 19 ∧ win0_5.index t (1 : Fin 2) = 0 :=
  (by decide +kernel : ∀ t : Fin grid0.N, _)

/-- Every row block is some point's. -/
theorem index_onto : ∀ q0 : Fin 20, ∃ t : Fin cfg0.N, win0_5.index t = ![q0.val, 0] :=
  (by decide +kernel : ∀ q0 : Fin 20, ∃ t : Fin grid0.N, win0_5.index t = ![q0.val, 0])

/-- What point t writes back is block t of `scaledLinear` of the arrays the region finds. -/
theorem flushed_eq (c : Dev nD) (t : Fin cfg0.N) :
    (dat0 V c).flushed 5 t = ((cfg0.win 5).blk t).view.read (Elt Ideal)
      (scaledLinear (V c main_arg0) (V c main_arg2) (V c main_v16) (V c main_v17) (V c main_v15)) := by
  show (cfg0.win 5).cut (grid0.coords t) ((dat0 V c).after 5 t) = _
  rw [after0_5]
  unfold out0_5
  rw [View.canon_unit_zero origin]
  simp only [View.ld_unit_zero (S := S5000x128) origin, View.ld_unit_zero (S := S5000x8) origin,
    View.ld_unit_zero (S := S128x128) origin, View.ld_unit_zero (S := S8x128) origin, View.ld_unit_zero (S := S5000x1) origin]
  obtain ⟨e00, e01, e10, e11, e20, e21, e30, e31, e40, e41, e50, e51⟩ := index_maps t
  funext j
  obtain ⟨p, q, rfl⟩ : ∃ (p : Fin 5000) (q : Fin 128), j = ix2 p q := ⟨j 0, j 1, eq_ix2 j⟩
  refine (Blocks.linear1_apply _ _ _ _ _ p q).trans ?_
  show _ = scaledLinear (V c main_arg0) (V c main_arg2) (V c main_v16) (V c main_v17) (V c main_v15)
    (((cfg0.win 5).blk t).view.emb (ix2 p q))
  unfold scaledLinear
  have h0 : ∀ k : Fin 128, iblk0 V c 0 t (ix2 p k)
      = V c main_arg0 (ix2 ((((cfg0.win 5).blk t).view.emb (ix2 p q)) 0 : Fin 100000) k) := fun k => by
    show V c main_arg0 (((cfg0.win 0).blk t).view.emb (ix2 p k)) = _
    refine congrArg _ (funext fun a => Fin.ext ?_)
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  have h1 : ∀ k : Fin 8, iblk0 V c 1 t (ix2 p k)
      = V c main_arg2 (ix2 ((((cfg0.win 5).blk t).view.emb (ix2 p q)) 0 : Fin 100000) k) := fun k => by
    show V c main_arg2 (((cfg0.win 1).blk t).view.emb (ix2 p k)) = _
    refine congrArg _ (funext fun a => Fin.ext ?_)
    match a with
    | ⟨0, _⟩ => show win0_1.index t (0 : Fin 2) * 5000 + 1 * p.val = win0_5.index t (0 : Fin 2) * 5000 + 1 * p.val; omega
    | ⟨1, _⟩ => show win0_1.index t (1 : Fin 2) * 8 + 1 * k.val = k.val; omega
  have h2 : ∀ k : Fin 128, iblk0 V c 2 t (ix2 k q)
      = V c main_v16 (ix2 k ((((cfg0.win 5).blk t).view.emb (ix2 p q)) 1 : Fin 128)) := fun k => by
    show V c main_v16 (((cfg0.win 2).blk t).view.emb (ix2 k q)) = _
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  have h3 : ∀ k : Fin 8, iblk0 V c 3 t (ix2 k q)
      = V c main_v17 (ix2 k ((((cfg0.win 5).blk t).view.emb (ix2 p q)) 1 : Fin 128)) := fun k => by
    show V c main_v17 (((cfg0.win 3).blk t).view.emb (ix2 k q)) = _
    refine congrArg _ (funext fun a => Fin.ext ?_)
    match a with
    | ⟨0, _⟩ => show win0_3.index t (0 : Fin 2) * 8 + 1 * k.val = k.val; omega
    | ⟨1, _⟩ => show win0_3.index t (1 : Fin 2) * 128 + 1 * q.val = win0_5.index t (1 : Fin 2) * 128 + 1 * q.val; omega
  have h4 : iblk0 V c 4 t (ix2 p (0 : Fin 1))
      = V c main_v15 (ix2 ((((cfg0.win 5).blk t).view.emb (ix2 p q)) 0 : Fin 100000) (0 : Fin 1)) := by
    show V c main_v15 (((cfg0.win 4).blk t).view.emb (ix2 p (0 : Fin 1))) = _
    refine congrArg _ (funext fun a => Fin.ext ?_)
    match a with
    | ⟨0, _⟩ => show win0_4.index t (0 : Fin 2) * 5000 + 1 * p.val = win0_5.index t (0 : Fin 2) * 5000 + 1 * p.val; omega
    | ⟨1, _⟩ => show win0_4.index t (1 : Fin 2) * 1 + 1 * 0 = 0; omega
  simp only [h0, h1, h2, h3, h4]

/-- An index is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v18).slice (win0_5.rect t)).set ↔ _
  rw [View.set_slice_whole, Rect.mem_set_unit]
  exact Iff.rfl

/-- Row n lies in the block of the point numbered n / 5000. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := index_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- The result array after the region. -/
theorem final (c : Dev nD) :
    (dat0 V c).arrAt 5 cfg0.N = scaledLinear (V c main_arg0) (V c main_arg2) (V c main_v16) (V c main_v17) (V c main_v15) :=
  (dat0 V c).arrAt_eq_of_cover 5 _ (fun t _ => flushed_eq V c t) covered

end Cert.KernelIdeal.Layer1

end
-- ==== Proof.Layer2Array.lean ====
/-
  The second launched region, as one function of the arrays it finds.

  Grid point t loads rows 5000·t … 5000·t + 4999 of the aggregated features and of the normalising column, the bias
  row whole, and writes back the same rows: entry (n, j) of the result is max(a(n,j)·d(n) + b(j), 0), and the 20 blocks
  cover all 100000 rows.
-/
import proofs.«118779_j61306363183554_2_alg».proof.Proof.Gen.KernelIdeal.Frame
import proofs.«118779_j61306363183554_2_alg».proof.Proof.KernelBlocks

set_option maxRecDepth 16384

noncomputable section

open scoped BigOperators

namespace Cert.KernelIdeal.Layer2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Entry (n, j): the aggregated entry scaled by the node's factor, plus the column's bias, rectified. -/
def biasRectify (a : Vec Ideal S100000x128 .f32) (d : Vec Ideal S100000x1 .f32) (b : Vec Ideal S1x128 .f32) :
    Vec Ideal S100000x128 .f32 :=
  fun i => max (a i * d (ix2 (i 0 : Fin 100000) (0 : Fin 1)) + b (ix2 (0 : Fin 1) (i 1 : Fin 128))) 0

theorem index_maps : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) ≤ 19 ∧ win1_3.index t (1 : Fin 2) = 0 :=
  (by decide +kernel : ∀ t : Fin grid1.N, _)

theorem index_onto : ∀ q0 : Fin 20, ∃ t : Fin cfg1.N, win1_3.index t = ![q0.val, 0] :=
  (by decide +kernel : ∀ q0 : Fin 20, ∃ t : Fin grid1.N, win1_3.index t = ![q0.val, 0])

/-- What point t writes back is block t of `biasRectify` of the arrays the region finds. -/
theorem flushed_eq (c : Dev nD) (t : Fin cfg1.N) :
    (dat1 V c).flushed 3 t = ((cfg1.win 3).blk t).view.read (Elt Ideal)
      (biasRectify (V c main_v29) (V c main_v15) (V c main_v30)) := by
  show (cfg1.win 3).cut (grid1.coords t) ((dat1 V c).after 3 t) = _
  rw [after1_3]
  unfold out1_3
  rw [View.canon_unit_zero origin]
  simp only [View.ld_unit_zero (S := S5000x128) origin, View.ld_unit_zero (S := S5000x1) origin,
    View.ld_unit_zero (S := S1x128) origin]
  obtain ⟨e00, e01, e10, e11, e20, e21, e30, e31⟩ := index_maps t
  funext j
  obtain ⟨p, q, rfl⟩ : ∃ (p : Fin 5000) (q : Fin 128), j = ix2 p q := ⟨j 0, j 1, eq_ix2 j⟩
  refine (Blocks.biasRelu_apply _ _ _ p q).trans ?_
  show _ = biasRectify (V c main_v29) (V c main_v15) (V c main_v30) (((cfg1.win 3).blk t).view.emb (ix2 p q))
  unfold biasRectify
  have h0 : iblk1 V c 0 t (ix2 p q) = V c main_v29 (((cfg1.win 3).blk t).view.emb (ix2 p q)) := by
    show V c main_v29 (((cfg1.win 0).blk t).view.emb (ix2 p q)) = _
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have h1 : iblk1 V c 1 t (ix2 p (0 : Fin 1))
      = V c main_v15 (ix2 ((((cfg1.win 3).blk t).view.emb (ix2 p q)) 0 : Fin 100000) (0 : Fin 1)) := by
    show V c main_v15 (((cfg1.win 1).blk t).view.emb (ix2 p (0 : Fin 1))) = _
    refine congrArg _ (funext fun a => Fin.ext ?_)
    match a with
    | ⟨0, _⟩ => show win1_1.index t (0 : Fin 2) * 5000 + 1 * p.val = win1_3.index t (0 : Fin 2) * 5000 + 1 * p.val; omega
    | ⟨1, _⟩ => show win1_1.index t (1 : Fin 2) * 1 + 1 * 0 = 0; omega
  have h2 : iblk1 V c 2 t (ix2 (0 : Fin 1) q)
      = V c main_v30 (ix2 (0 : Fin 1) ((((cfg1.win 3).blk t).view.emb (ix2 p q)) 1 : Fin 128)) := by
    show V c main_v30 (((cfg1.win 2).blk t).view.emb (ix2 (0 : Fin 1) q)) = _
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  simp only [h0, h1, h2]

theorem mem_block (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v31).slice (win1_3.rect t)).set ↔ _
  rw [View.set_slice_whole, Rect.mem_set_unit]
  exact Iff.rfl

theorem covered (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := index_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_block]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the region. -/
theorem final (c : Dev nD) :
    (dat1 V c).arrAt 3 cfg1.N = biasRectify (V c main_v29) (V c main_v15) (V c main_v30) :=
  (dat1 V c).arrAt_eq_of_cover 3 _ (fun t _ => flushed_eq V c t) covered

end Cert.KernelIdeal.Layer2

end
-- ==== Proof.Layer3Array.lean ====
/-
  The third launched region, as one function of the arrays it finds.

  Grid point t loads rows 5000·t … 5000·t + 4999 of the hidden features and of the normalising column, the weight
  block whole, and writes back the same rows: entry (n, j) of the result is (Σ_k x(n,k)·W(k,j)) · d(n), and the 20
  blocks cover all 100000 rows.
-/
import proofs.«118779_j61306363183554_2_alg».proof.Proof.Gen.KernelIdeal.Frame
import proofs.«118779_j61306363183554_2_alg».proof.Proof.KernelBlocks

set_option maxRecDepth 16384

noncomputable section

open scoped BigOperators

namespace Cert.KernelIdeal.Layer3

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Entry (n, j): row n of the features times column j of the weights, scaled by the node's factor. -/
def scaledProduct (x : Vec Ideal S100000x128 .f32) (w : Vec Ideal S128x3 .f32) (d : Vec Ideal S100000x1 .f32) :
    Vec Ideal S100000x3 .f32 :=
  fun i => (∑ k : Fin 128, x (ix2 (i 0 : Fin 100000) k) * w (ix2 k (i 1 : Fin 3))) * d (ix2 (i 0 : Fin 100000) (0 : Fin 1))

theorem index_maps : ∀ t : Fin cfg2.N,
    win2_0.index t (0 : Fin 2) = win2_3.index t (0 : Fin 2) ∧ win2_0.index t (1 : Fin 2) = 0
    ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (0 : Fin 2) ≤ 19 ∧ win2_3.index t (1 : Fin 2) = 0 :=
  (by decide +kernel : ∀ t : Fin grid2.N, _)

theorem index_onto : ∀ q0 : Fin 20, ∃ t : Fin cfg2.N, win2_3.index t = ![q0.val, 0] :=
  (by decide +kernel : ∀ q0 : Fin 20, ∃ t : Fin grid2.N, win2_3.index t = ![q0.val, 0])

/-- What point t writes back is block t of `scaledProduct` of the arrays the region finds. -/
theorem flushed_eq (c : Dev nD) (t : Fin cfg2.N) :
    (dat2 V c).flushed 3 t = ((cfg2.win 3).blk t).view.read (Elt Ideal)
      (scaledProduct (V c main_v31) (V c main_arg5) (V c main_v15)) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x3) origin,
    View.ld_unit_zero (S := S5000x1) origin]
  obtain ⟨e00, e01, e10, e11, e20, e21, e30, e31⟩ := index_maps t
  funext j
  obtain ⟨p, q, rfl⟩ : ∃ (p : Fin 5000) (q : Fin 3), j = ix2 p q := ⟨j 0, j 1, eq_ix2 j⟩
  refine (Blocks.linear2_apply _ _ _ p q).trans ?_
  show _ = scaledProduct (V c main_v31) (V c main_arg5) (V c main_v15) (((cfg2.win 3).blk t).view.emb (ix2 p q))
  unfold scaledProduct
  have h0 : ∀ k : Fin 128, iblk2 V c 0 t (ix2 p k)
      = V c main_v31 (ix2 ((((cfg2.win 3).blk t).view.emb (ix2 p q)) 0 : Fin 100000) k) := fun k => by
    show V c main_v31 (((cfg2.win 0).blk t).view.emb (ix2 p k)) = _
    refine congrArg _ (funext fun a => Fin.ext ?_)
    match a with
    | ⟨0, _⟩ => show win2_0.index t (0 : Fin 2) * 5000 + 1 * p.val = win2_3.index t (0 : Fin 2) * 5000 + 1 * p.val; omega
    | ⟨1, _⟩ => show win2_0.index t (1 : Fin 2) * 128 + 1 * k.val = k.val; omega
  have h1 : ∀ k : Fin 128, iblk2 V c 1 t (ix2 k q)
      = V c main_arg5 (ix2 k ((((cfg2.win 3).blk t).view.emb (ix2 p q)) 1 : Fin 3)) := fun k => by
    show V c main_arg5 (((cfg2.win 1).blk t).view.emb (ix2 k q)) = _
    refine congrArg _ (funext fun a => Fin.ext ?_)
    match a with
    | ⟨0, _⟩ => show win2_1.index t (0 : Fin 2) * 128 + 1 * k.val = k.val; omega
    | ⟨1, _⟩ => show win2_1.index t (1 : Fin 2) * 3 + 1 * q.val = win2_3.index t (1 : Fin 2) * 3 + 1 * q.val; omega
  have h2 : iblk2 V c 2 t (ix2 p (0 : Fin 1))
      = V c main_v15 (ix2 ((((cfg2.win 3).blk t).view.emb (ix2 p q)) 0 : Fin 100000) (0 : Fin 1)) := by
    show V c main_v15 (((cfg2.win 2).blk t).view.emb (ix2 p (0 : Fin 1))) = _
    refine congrArg _ (funext fun a => Fin.ext ?_)
    match a with
    | ⟨0, _⟩ => show win2_2.index t (0 : Fin 2) * 5000 + 1 * p.val = win2_3.index t (0 : Fin 2) * 5000 + 1 * p.val; omega
    | ⟨1, _⟩ => show win2_2.index t (1 : Fin 2) * 1 + 1 * 0 = 0; omega
  simp only [h0, h1, h2]

theorem mem_block (t : Fin cfg2.N) (i : S100000x3.Idx) :
    i ∈ ((cfg2.win 3).blk t).view.set ↔ ∀ a : Fin 2, win2_3.index t a * S5000x3.size a ≤ (i a).val
      ∧ (i a).val < win2_3.index t a * S5000x3.size a + S5000x3.size a := by
  show i ∈ ((View.whole main_v32).slice (win2_3.rect t)).set ↔ _
  rw [View.set_slice_whole, Rect.mem_set_unit]
  exact Iff.rfl

theorem covered (i : S100000x3.Idx) :
    ∃ t : Fin cfg2.N, (cfg2.win 3).flush t = true ∧ i ∈ ((cfg2.win 3).blk t).view.set := by
  have hi0 : (i 0).val < 100000 := (i 0).isLt
  have hi1 : (i 1).val < 3 := (i 1).isLt
  obtain ⟨t, ht⟩ := index_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 3 ≤ (i 1).val ∧ (i 1).val < win2_3.index t (1 : Fin 2) * 3 + 3; omega

/-- The result array after the region. -/
theorem final (c : Dev nD) :
    (dat2 V c).arrAt 3 cfg2.N = scaledProduct (V c main_v31) (V c main_arg5) (V c main_v15) :=
  (dat2 V c).arrAt_eq_of_cover 3 _ (fun t _ => flushed_eq V c t) covered

end Cert.KernelIdeal.Layer3

end
-- ==== Proof.KernelTerms.lean ====
/-
  The idealized kernel's result as one term of its seven argument arrays.

  From the edge list: the message sources (the first edge row followed by every node number: a self loop per
  node) and the message targets (the second edge row followed by every node number); the degree of a node is the
  number of messages aimed at it, and its normalising factor is 1/√degree where the degree is positive, 0
  elsewhere. A layer multiplies the node features by its weights and scales row n by the factor of n; the rows are
  then gathered per message by source and added into the rows of the targets; the sum in row v is scaled by the
  factor of v and the bias is added. The first layer ends with the maximum with zero.
-/
import proofs.«118779_j61306363183554_2_alg».proof.Proof.Layer1Array
import proofs.«118779_j61306363183554_2_alg».proof.Proof.Layer2Array
import proofs.«118779_j61306363183554_2_alg».proof.Proof.Layer3Array

noncomputable section

namespace Cert.KernelIdeal.Terms

open Idealize.ShloMosaic Cert.KernelIdeal Cert.KernelIdeal.Gen

/-- The message sources: edge row 0, then every node's own number. -/
def sourceIds (x1 : IVec S2x1600000 32) : IVec S1700000 32 :=
  concatenate S1700000 0 [⟨S1600000, shapeCast _ (extractStridedSlice S1x1600000 ![0, 0] x1 slices_S2x1600000_S1x1600000_0_0) shapeCasts_S1x1600000_S1600000⟩, ⟨S100000, iotaInDim S100000 32 0⟩] concatenates_S1600000_S100000_S1700000_d0

/-- The message targets: edge row 1, then every node's own number. -/
def targetIds (x1 : IVec S2x1600000 32) : IVec S1700000 32 :=
  concatenate S1700000 0 [⟨S1600000, shapeCast _ (extractStridedSlice S1x1600000 ![1, 0] x1 slices_S2x1600000_S1x1600000_1_0) shapeCasts_S1x1600000_S1600000⟩, ⟨S100000, iotaInDim S100000 32 0⟩] concatenates_S1600000_S100000_S1700000_d0

/-- Target numbers as the column a scatter reads. -/
def targetColumnOf (tgt : IVec S1700000 32) : IVec S1700000x1 32 :=
  broadcastInDim S1700000x1 ![0] bcast_S1700000_S1700000x1_0 tgt

/-- Source numbers as the column a gather reads: a negative number wrapped once by the number of nodes. -/
def sourceColumnOf (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- The number of messages aimed at each node. -/
def degree (x1 : IVec S2x1600000 32) : FVec Ideal S100000 .f32 :=
  Host.scatterAdd scatter_S100000_S1700000x1_S1700000_n_0_0_1
    (broadcastInDim S100000 ![] bcast_S_S100000 (constant S_ .f32 0x00000000#32)) (targetColumnOf (targetIds x1))
    (broadcastInDim S1700000 ![] bcast_S_S1700000 (constant S_ .f32 0x3F800000#32))

/-- The normalising factor of each node. -/
def factor (x1 : IVec S2x1600000 32) : FVec Ideal S100000 .f32 :=
  select (cmpf .ogt (degree x1) (broadcastInDim S100000 ![] bcast_S_S100000 (constant S_ .f32 0x00000000#32)))
    (Host.rsqrt (degree x1)) (broadcastInDim S100000 ![] bcast_S_S100000 (id (constant S_ .f32 0x00000000#32)))

/-- The factors as a column. -/
def factorColumn (x1 : IVec S2x1600000 32) : FVec Ideal S100000x1 .f32 :=
  shapeCast _ (factor x1) shapeCasts_S100000_S100000x1

/-- Rows of width 128 gathered per message by source and added into the targets' rows. -/
def aggregateWideOf (src tgt : IVec S1700000 32) (hs : FVec Ideal S100000x128 .bf16) : FVec Ideal S100000x128 .f32 :=
  Host.scatterAdd scatter_S100000x128_S1700000x1_S1700000x128_1_0_0_1
    (broadcastInDim S100000x128 ![] bcast_S_S100000x128 (constant S_ .f32 0x00000000#32)) (targetColumnOf tgt)
    (extf .f32 (Host.gather gather_S100000x128_S1700000x1_S1700000x128_1_0_n_n_0_1_1128 hs (sourceColumnOf src)) bitsLt_bf16_f32)

/-- Rows of width 3 gathered per message by source and added into the targets' rows. -/
def aggregateNarrowOf (src tgt : IVec S1700000 32) (hs : FVec Ideal S100000x3 .f32) : FVec Ideal S100000x3 .f32 :=
  Host.scatterAdd scatter_S100000x3_S1700000x1_S1700000x3_1_0_0_1
    (broadcastInDim S100000x3 ![] bcast_S_S100000x3 (constant S_ .f32 0x00000000#32)) (targetColumnOf tgt)
    (Host.gather gather_S100000x3_S1700000x1_S1700000x3_1_0_n_n_0_1_13 hs (sourceColumnOf src))

/-- The last stretch: aggregate the scaled second-layer rows, scale row v by the factor of v, add the bias. -/
def closeOf (src tgt : IVec S1700000 32) (d : FVec Ideal S100000x1 .f32) (b2 : FVec Ideal S3 .f32)
    (hs : FVec Ideal S100000x3 .f32) : FVec Ideal S100000x3 .f32 :=
  addf (mulf (aggregateNarrowOf src tgt hs) (broadcastInDim S100000x3 ![0, 1] bcast_S100000x1_S100000x3_0_1 d))
    (broadcastInDim S100000x3 ![0, 1] bcast_S1x3_S100000x3_0_1 (broadcastInDim S1x3 ![1] bcast_S3_S1x3_1 b2))

/-- The hidden features after the first layer. -/
def hidden (x0 : FVec Ideal S100000x128 .f32) (x1 : IVec S2x1600000 32) (x2 : FVec Ideal S100000x8 .f32)
    (x3 : FVec Ideal S136x128 .f32) (x4 : FVec Ideal S128 .f32) : FVec Ideal S100000x128 .f32 :=
  Layer2.biasRectify
    (aggregateWideOf (sourceIds x1) (targetIds x1)
      (Layer1.scaledLinear x0 x2 (extractStridedSlice S128x128 ![0, 0] x3 slices_S136x128_S128x128_0_0)
        (extractStridedSlice S8x128 ![128, 0] x3 slices_S136x128_S8x128_128_0) (factorColumn x1)))
    (factorColumn x1) (shapeCast _ x4 shapeCasts_S128_S1x128)

/-- The kernel's result. -/
def result (x0 : FVec Ideal S100000x128 .f32) (x1 : IVec S2x1600000 32) (x2 : FVec Ideal S100000x8 .f32)
    (x3 : FVec Ideal S136x128 .f32) (x4 : FVec Ideal S128 .f32) (x5 : FVec Ideal S128x3 .f32) (x6 : FVec Ideal S3 .f32) :
    FVec Ideal S100000x3 .f32 :=
  closeOf (sourceIds x1) (targetIds x1) (factorColumn x1) x6
    (Layer3.scaledProduct (hidden x0 x1 x2 x3 x4) x5 (factorColumn x1))

end Cert.KernelIdeal.Terms

end
-- ==== Proof.KernelFold.lean ====
/-
  The contents of the result buffer after the last stretch of host operations, folded back to the launch memory.

  Walking backwards: the last stretch aggregates what the third region wrote; the third region wrote the scaled
  product of what the second region wrote; the second region rectified what the middle stretch aggregated out of
  what the first region wrote; the first region wrote the scaled first linear layer of the arguments. The message
  ids and the normalising column are computed by the first stretches and are not written again: every later
  boundary holds them unchanged, and so it holds the arguments.
-/
import proofs.«118779_j61306363183554_2_alg».proof.Proof.KernelTerms
import Idealize.ShloMosaic.Lib.StableHlo.Run

set_option maxRecDepth 16384
-- the boundary contents are long chains of buffer updates: unfolding one takes more than the default budget
set_option maxHeartbeats 4000000

noncomputable section

namespace Cert.KernelIdeal.Fold

open Idealize.ShloMosaic Idealize.ShloMosaic.TcCoe Idealize.ShloMosaic.StableHlo
open Idealize.SL.Sem
open Idealize.ShloMosaic.Pipeline (Dat Cfg Window)
open Cert.KernelIdeal Cert.KernelIdeal.Gen Cert.KernelIdeal.Terms

variable (m : (ℓ : Loc nD τ sig) → Buf (Elt Ideal) ℓ) (ρ : Dev nD → PrngReg) (c : Dev nD)

/-- A stretch of host operations leaves a buffer none of them writes as it found it. -/
local macro "not_written_by " ops:ident : tactic => `(tactic| (
  refine StableHlo.after_of_forall_not_mem _ _ (List.forall_iff_forall_mem.mp ?_)
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## What the first region finds -/

theorem entry_sources : W3 m ρ c (Proc.devRef .tc main_v5) = sourceIds (m ((c : Thread nD τ).loc main_arg1)) := by
  dsimp only [W3, W2, W1, W0, hostOps0, hostOps0_1, hostOps0_2]
  after_results <;> rfl

theorem entry_targets : W3 m ρ c (Proc.devRef .tc main_v6) = targetIds (m ((c : Thread nD τ).loc main_arg1)) := by
  dsimp only [W3, W2, W1, W0, hostOps0, hostOps0_1, hostOps0_2]
  after_results <;> rfl

theorem degree_positive_eq : W1 m ρ c (Proc.devRef .tc main_v12)
    = cmpf .ogt (degree (m ((c : Thread nD τ).loc main_arg1))) (broadcastInDim S100000 ![] bcast_S_S100000 (constant S_ .f32 0x00000000#32)) := by
  dsimp only [W1, W0, hostOps0]
  after_results <;> rfl

theorem degree_rsqrt_eq : W1 m ρ c (Proc.devRef .tc main_v13) = Host.rsqrt (degree (m ((c : Thread nD τ).loc main_arg1))) := by
  dsimp only [W1, W0, hostOps0]
  after_results <;> rfl

theorem zero_scalar_eq : W1 m ρ c (Proc.devRef .tc main_cst_2) = constant (F := Ideal) S_ .f32 0x00000000#32 := by
  dsimp only [W1, W0, hostOps0]
  after_results <;> rfl

theorem factor_select_eq : W2 m ρ c (Proc.devRef .tc main_v14)
    = select (W1 m ρ c (Proc.devRef .tc main_v12)) (W1 m ρ c (Proc.devRef .tc main_v13))
        (broadcastInDim S100000 ![] bcast_S_S100000 (id (W1 m ρ c (Proc.devRef .tc main_cst_2)))) := by
  dsimp only [W2, hostOps0_1]
  generalize W1 m ρ c = U
  after_results <;> rfl

theorem factor_column_eq : W3 m ρ c (Proc.devRef .tc main_v15)
    = shapeCast _ (W2 m ρ c (Proc.devRef .tc main_v14)) shapeCasts_S100000_S100000x1 := by
  dsimp only [W3, hostOps0_2]
  after_results <;> rfl

theorem entry_factor : W3 m ρ c (Proc.devRef .tc main_v15) = factorColumn (m ((c : Thread nD τ).loc main_arg1)) := by
  rw [factor_column_eq, factor_select_eq, degree_positive_eq, degree_rsqrt_eq, zero_scalar_eq]
  rfl

theorem entry_weightsA : W3 m ρ c (Proc.devRef .tc main_v16)
    = extractStridedSlice S128x128 ![0, 0] (m ((c : Thread nD τ).loc main_arg3)) slices_S136x128_S128x128_0_0 := by
  dsimp only [W3, W2, W1, W0, hostOps0, hostOps0_1, hostOps0_2]
  after_results <;> rfl

theorem entry_weightsB : W3 m ρ c (Proc.devRef .tc main_v17)
    = extractStridedSlice S8x128 ![128, 0] (m ((c : Thread nD τ).loc main_arg3)) slices_S136x128_S8x128_128_0 := by
  dsimp only [W3, W2, W1, W0, hostOps0, hostOps0_1, hostOps0_2]
  after_results <;> rfl

/-- An argument is written by no host operation before the first region. -/
theorem entry_arg (b : Ref sig .tc) (h0 : W1 m ρ c (Proc.devRef .tc b) = W0 m ρ c (Proc.devRef .tc b))
    (h1 : W2 m ρ c (Proc.devRef .tc b) = W1 m ρ c (Proc.devRef .tc b)) (h2 : W3 m ρ c (Proc.devRef .tc b) = W2 m ρ c (Proc.devRef .tc b)) :
    W3 m ρ c (Proc.devRef .tc b) = W0 m ρ c (Proc.devRef .tc b) := h2.trans (h1.trans h0)

theorem entry_arg0 : W3 m ρ c (Proc.devRef .tc main_arg0) = (m ((c : Thread nD τ).loc main_arg0)) :=
  entry_arg m ρ c main_arg0 (by not_written_by hostOps0) (by not_written_by hostOps0_1) (by not_written_by hostOps0_2)
theorem entry_arg2 : W3 m ρ c (Proc.devRef .tc main_arg2) = (m ((c : Thread nD τ).loc main_arg2)) :=
  entry_arg m ρ c main_arg2 (by not_written_by hostOps0) (by not_written_by hostOps0_1) (by not_written_by hostOps0_2)
theorem entry_arg4 : W3 m ρ c (Proc.devRef .tc main_arg4) = (m ((c : Thread nD τ).loc main_arg4)) :=
  entry_arg m ρ c main_arg4 (by not_written_by hostOps0) (by not_written_by hostOps0_1) (by not_written_by hostOps0_2)
theorem entry_arg5 : W3 m ρ c (Proc.devRef .tc main_arg5) = (m ((c : Thread nD τ).loc main_arg5)) :=
  entry_arg m ρ c main_arg5 (by not_written_by hostOps0) (by not_written_by hostOps0_1) (by not_written_by hostOps0_2)
theorem entry_arg6 : W3 m ρ c (Proc.devRef .tc main_arg6) = (m ((c : Thread nD τ).loc main_arg6)) :=
  entry_arg m ρ c main_arg6 (by not_written_by hostOps0) (by not_written_by hostOps0_1) (by not_written_by hostOps0_2)

/-! ## What is carried past the regions and the middle stretch -/

/-- At every boundary after the first region's entry the buffer is as the first region found it. -/
abbrev KeptSinceEntry (b : Ref sig .tc) : Prop :=
  W4 m ρ c (Proc.devRef .tc b) = W3 m ρ c (Proc.devRef .tc b) ∧ W5 m ρ c (Proc.devRef .tc b) = W3 m ρ c (Proc.devRef .tc b)
    ∧ W6 m ρ c (Proc.devRef .tc b) = W3 m ρ c (Proc.devRef .tc b) ∧ W7 m ρ c (Proc.devRef .tc b) = W3 m ρ c (Proc.devRef .tc b)

/-- A buffer that is no array of any region and that the middle stretch does not write is, at every later
    boundary, as the first region found it. -/
theorem carried (b : Ref sig .tc) (h0 : ∀ w, Pipeline.arrRef spec0 w ≠ b) (h1 : ∀ w, Pipeline.arrRef spec1 w ≠ b)
    (h2 : ∀ w, Pipeline.arrRef spec2 w ≠ b) (hw : W5 m ρ c (Proc.devRef .tc b) = W4 m ρ c (Proc.devRef .tc b)) :
    W4 m ρ c (Proc.devRef .tc b) = W3 m ρ c (Proc.devRef .tc b) ∧ W5 m ρ c (Proc.devRef .tc b) = W3 m ρ c (Proc.devRef .tc b)
    ∧ W6 m ρ c (Proc.devRef .tc b) = W3 m ρ c (Proc.devRef .tc b) ∧ W7 m ρ c (Proc.devRef .tc b) = W3 m ρ c (Proc.devRef .tc b) := by
  have e4 := W4_of_ne m ρ c b h0
  have e5 := hw.trans e4
  have e6 := (W6_of_ne m ρ c b h1).trans e5
  exact ⟨e4, e5, e6, (W7_of_ne m ρ c b h2).trans e6⟩

theorem carried_sources : KeptSinceEntry m ρ c main_v5 := carried m ρ c main_v5 (by decide) (by decide) (by decide) (by not_written_by hostOps1)
theorem carried_targets : KeptSinceEntry m ρ c main_v6 := carried m ρ c main_v6 (by decide) (by decide) (by decide) (by not_written_by hostOps1)
theorem carried_arg4 : KeptSinceEntry m ρ c main_arg4 := carried m ρ c main_arg4 (by decide) (by decide) (by decide) (by not_written_by hostOps1)
theorem carried_arg6 : KeptSinceEntry m ρ c main_arg6 := carried m ρ c main_arg6 (by decide) (by decide) (by decide) (by not_written_by hostOps1)

/-- The second layer's weights: an input array of the third region only. -/
theorem carried_arg5 : W6 m ρ c (Proc.devRef .tc main_arg5) = W3 m ρ c (Proc.devRef .tc main_arg5) :=
  (W6_of_ne m ρ c main_arg5 (by decide)).trans
    (((by not_written_by hostOps1 : W5 m ρ c (Proc.devRef .tc main_arg5) = W4 m ρ c (Proc.devRef .tc main_arg5))).trans
      (W4_of_ne m ρ c main_arg5 (by decide)))

/-- The normalising column: an input array of all three regions, written by none and by no later stretch. -/
theorem carried_factor :
    W4 m ρ c (Proc.devRef .tc main_v15) = W3 m ρ c (Proc.devRef .tc main_v15) ∧ W5 m ρ c (Proc.devRef .tc main_v15) = W3 m ρ c (Proc.devRef .tc main_v15)
    ∧ W6 m ρ c (Proc.devRef .tc main_v15) = W3 m ρ c (Proc.devRef .tc main_v15) ∧ W7 m ρ c (Proc.devRef .tc main_v15) = W3 m ρ c (Proc.devRef .tc main_v15) := by
  have e4 : W4 m ρ c (Proc.devRef .tc main_v15) = W3 m ρ c (Proc.devRef .tc main_v15) :=
    (W4_arr m ρ c 4).trans (((dat0 (V3 m ρ) c).arrAt_in 4 rfl _).trans (A_eq0 (V3 m ρ) c 4))
  have e5 : W5 m ρ c (Proc.devRef .tc main_v15) = W3 m ρ c (Proc.devRef .tc main_v15) :=
    ((by not_written_by hostOps1 : W5 m ρ c (Proc.devRef .tc main_v15) = W4 m ρ c (Proc.devRef .tc main_v15))).trans e4
  have e6 : W6 m ρ c (Proc.devRef .tc main_v15) = W3 m ρ c (Proc.devRef .tc main_v15) :=
    ((W6_arr m ρ c 1).trans (((dat1 (V5 m ρ) c).arrAt_in 1 rfl _).trans (A_eq1 (V5 m ρ) c 1))).trans e5
  exact ⟨e4, e5, e6,
    ((W7_arr m ρ c 2).trans (((dat2 (V6 m ρ) c).arrAt_in 2 rfl _).trans (A_eq2 (V6 m ρ) c 2))).trans e6⟩

/-! ## The stretches and the regions, last to first -/

theorem close_eq : W8 m ρ c (Proc.devRef .tc main_v47)
    = closeOf (W7 m ρ c (Proc.devRef .tc main_v5)) (W7 m ρ c (Proc.devRef .tc main_v6)) (W7 m ρ c (Proc.devRef .tc main_v15))
        (W7 m ρ c (Proc.devRef .tc main_arg6)) (W7 m ρ c (Proc.devRef .tc main_v32)) := by
  dsimp only [W8, hostOps3]
  after_results <;> rfl

theorem third_eq : W7 m ρ c (Proc.devRef .tc main_v32)
    = Layer3.scaledProduct (W6 m ρ c (Proc.devRef .tc main_v31)) (W6 m ρ c (Proc.devRef .tc main_arg5)) (W6 m ρ c (Proc.devRef .tc main_v15)) :=
  (W7_arr m ρ c 3).trans (Layer3.final (V6 m ρ) c)

theorem second_eq : W6 m ρ c (Proc.devRef .tc main_v31)
    = Layer2.biasRectify (W5 m ρ c (Proc.devRef .tc main_v29)) (W5 m ρ c (Proc.devRef .tc main_v15)) (W5 m ρ c (Proc.devRef .tc main_v30)) :=
  (W6_arr m ρ c 3).trans (Layer2.final (V5 m ρ) c)

theorem middle_eq : W5 m ρ c (Proc.devRef .tc main_v29)
    = aggregateWideOf (W4 m ρ c (Proc.devRef .tc main_v5)) (W4 m ρ c (Proc.devRef .tc main_v6)) (W4 m ρ c (Proc.devRef .tc main_v18)) := by
  dsimp only [W5, hostOps1]
  after_results <;> rfl

theorem bias_row_eq : W5 m ρ c (Proc.devRef .tc main_v30)
    = shapeCast _ (W4 m ρ c (Proc.devRef .tc main_arg4)) shapeCasts_S128_S1x128 := by
  dsimp only [W5, hostOps1]
  after_results <;> rfl

theorem first_eq : W4 m ρ c (Proc.devRef .tc main_v18)
    = Layer1.scaledLinear (W3 m ρ c (Proc.devRef .tc main_arg0)) (W3 m ρ c (Proc.devRef .tc main_arg2)) (W3 m ρ c (Proc.devRef .tc main_v16))
        (W3 m ρ c (Proc.devRef .tc main_v17)) (W3 m ρ c (Proc.devRef .tc main_v15)) :=
  (W4_arr m ρ c 5).trans (Layer1.final (V3 m ρ) c)

/-- The result buffer's final contents are the kernel's term of the launch arguments. -/
theorem result_eq : W8 m ρ c (Proc.devRef .tc main_v47)
    = Terms.result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  obtain ⟨s4, -, -, s7⟩ := carried_sources m ρ c
  obtain ⟨t4, -, -, t7⟩ := carried_targets m ρ c
  obtain ⟨d4, d5, d6, d7⟩ := carried_factor m ρ c
  obtain ⟨b4, -, -, -⟩ := carried_arg4 m ρ c
  obtain ⟨-, -, -, c7⟩ := carried_arg6 m ρ c
  rw [close_eq, s7, t7, d7, c7, third_eq, d6, carried_arg5, second_eq, d5, middle_eq, s4, t4, bias_row_eq, b4, first_eq]
  rw [entry_sources, entry_targets, entry_factor, entry_weightsA, entry_weightsB, entry_arg0, entry_arg2, entry_arg4,
    entry_arg5, entry_arg6]
  rfl

end Cert.KernelIdeal.Fold

end
-- ==== Proof.RefTerms.lean ====
/-
  The idealized reference's result as one term of its seven argument arrays, in named stages.

  The message sources, targets, degrees and normalising factors are as in the kernel. Each message carries the
  weight factor(source) · factor(target), both read per message; a layer multiplies the node features (the first
  layer: the features and the material parameters side by side) by its weights, gathers the rows per message by
  source, scales each gathered row by the message's weight, adds the rows into the targets' rows and adds the
  bias. The first layer ends with the maximum with zero.
-/
import proofs.«118779_j61306363183554_2_alg».proof.Proof.RefRunP
import Idealize.ShloMosaic.PureOps.Ideal

set_option maxRecDepth 16384

noncomputable section

namespace Cert.ReferenceIdeal.Terms

open Idealize.ShloMosaic Idealize.ShloMosaic.TcCoe Idealize.SL.Sem Cert.ReferenceIdeal Cert.ReferenceIdeal.Gen

/-- The message sources: edge row 0, then every node's own number. -/
def sourceIds (x1 : IVec S2x1600000 32) : IVec S1700000 32 :=
  concatenate S1700000 0 [⟨S1600000, shapeCast _ (extractStridedSlice S1x1600000 ![0, 0] x1 slices_S2x1600000_S1x1600000_0_0) shapeCasts_S1x1600000_S1600000⟩, ⟨S100000, iotaInDim S100000 32 0⟩] concatenates_S1600000_S100000_S1700000_d0

/-- The message targets: edge row 1, then every node's own number. -/
def targetIds (x1 : IVec S2x1600000 32) : IVec S1700000 32 :=
  concatenate S1700000 0 [⟨S1600000, shapeCast _ (extractStridedSlice S1x1600000 ![1, 0] x1 slices_S2x1600000_S1x1600000_1_0) shapeCasts_S1x1600000_S1600000⟩, ⟨S100000, iotaInDim S100000 32 0⟩] concatenates_S1600000_S100000_S1700000_d0

/-- Node numbers as the column a scatter reads. -/
def targetColumnOf (tgt : IVec S1700000 32) : IVec S1700000x1 32 :=
  broadcastInDim S1700000x1 ![0] bcast_S1700000_S1700000x1_0 tgt

/-- Node numbers as the column a gather reads: a negative number wrapped once by the number of nodes. -/
def sourceColumnOf (src : IVec S1700000 32) : IVec S1700000x1 32 :=
  broadcastInDim S1700000x1 ![0] bcast_S1700000_S1700000x1_0
    (select (cmpi .slt src (broadcastInDim S1700000 ![] bcast_S_S1700000 (constantI S_ 32 0#32)))
      (addi src (broadcastInDim S1700000 ![] bcast_S_S1700000 (constantI S_ 32 100000#32))) src)

/-- The number of messages aimed at each node. -/
def degree (x1 : IVec S2x1600000 32) : FVec Ideal S100000 .f32 :=
  Host.scatterAdd scatter_S100000_S1700000x1_S1700000_n_0_0_1
    (broadcastInDim S100000 ![] bcast_S_S100000 (constant S_ .f32 0x00000000#32)) (targetColumnOf (targetIds x1))
    (broadcastInDim S1700000 ![] bcast_S_S1700000 (constant S_ .f32 0x3F800000#32))

/-- The normalising factor of each node. -/
def factor (x1 : IVec S2x1600000 32) : FVec Ideal S100000 .f32 :=
  select (cmpf .ogt (degree x1) (broadcastInDim S100000 ![] bcast_S_S100000 (constant S_ .f32 0x00000000#32)))
    (Host.rsqrt (degree x1)) (broadcastInDim S100000 ![] bcast_S_S100000 (id (constant S_ .f32 0x00000000#32)))

/-- The weight of each message: the factor of its source times the factor of its target. -/
def messageWeight (x1 : IVec S2x1600000 32) : FVec Ideal S1700000 .f32 :=
  mulf (Host.gather gather_S100000_S1700000x1_S1700000_n_0_n_n_0_1_1 (factor x1) (sourceColumnOf (sourceIds x1)))
    (Host.gather gather_S100000_S1700000x1_S1700000_n_0_n_n_0_1_1 (factor x1) (sourceColumnOf (targetIds x1)))

/-- The first layer's product: the features and the material parameters side by side, times the weights. -/
def linear1 (x0 : FVec Ideal S100000x128 .f32) (x2 : FVec Ideal S100000x8 .f32) (x3 : FVec Ideal S136x128 .f32) :
    FVec Ideal S100000x128 .f32 :=
  Host.dotGeneral dot_S100000x136_S136x128_S100000x128_1_0_0_1_n_n none
    (concatenate S100000x136 1 [⟨S100000x128, x0⟩, ⟨S100000x8, x2⟩] concatenates_S100000x128_S100000x8_S100000x136_d1) x3

/-- The hidden features after the first layer. -/
def hidden (x0 : FVec Ideal S100000x128 .f32) (x1 : IVec S2x1600000 32) (x2 : FVec Ideal S100000x8 .f32)
    (x3 : FVec Ideal S136x128 .f32) (x4 : FVec Ideal S128 .f32) : FVec Ideal S100000x128 .f32 :=
  maximumf
    (addf
      (Host.scatterAdd scatter_S100000x128_S1700000x1_S1700000x128_1_0_0_1
        (broadcastInDim S100000x128 ![] bcast_S_S100000x128 (constant S_ .f32 0x00000000#32)) (targetColumnOf (targetIds x1))
        (mulf (Host.gather gather_S100000x128_S1700000x1_S1700000x128_1_0_n_n_0_1_1128 (linear1 x0 x2 x3) (sourceColumnOf (sourceIds x1)))
          (broadcastInDim S1700000x128 ![0, 1] bcast_S1700000x1_S1700000x128_0_1
            (broadcastInDim S1700000x1 ![0] bcast_S1700000_S1700000x1_0 (messageWeight x1)))))
      (broadcastInDim S100000x128 ![0, 1] bcast_S1x128_S100000x128_0_1 (broadcastInDim S1x128 ![1] bcast_S128_S1x128_1 x4)))
    (broadcastInDim S100000x128 ![] bcast_S_S100000x128 (constant S_ .f32 0x00000000#32))

/-- The reference's result. -/
def result (x0 : FVec Ideal S100000x128 .f32) (x1 : IVec S2x1600000 32) (x2 : FVec Ideal S100000x8 .f32)
    (x3 : FVec Ideal S136x128 .f32) (x4 : FVec Ideal S128 .f32) (x5 : FVec Ideal S128x3 .f32) (x6 : FVec Ideal S3 .f32) :
    FVec Ideal S100000x3 .f32 :=
  addf
    (Host.scatterAdd scatter_S100000x3_S1700000x1_S1700000x3_1_0_0_1
      (broadcastInDim S100000x3 ![] bcast_S_S100000x3 (constant S_ .f32 0x00000000#32)) (targetColumnOf (targetIds x1))
      (mulf (Host.gather gather_S100000x3_S1700000x1_S1700000x3_1_0_n_n_0_1_13
          (Host.dotGeneral dot_S100000x128_S128x3_S100000x3_1_0_0_1_n_n none (hidden x0 x1 x2 x3 x4) x5) (sourceColumnOf (sourceIds x1)))
        (broadcastInDim S1700000x3 ![0, 1] bcast_S1700000x1_S1700000x3_0_1
          (broadcastInDim S1700000x1 ![0] bcast_S1700000_S1700000x1_0 (messageWeight x1)))))
    (broadcastInDim S100000x3 ![0, 1] bcast_S1x3_S100000x3_0_1 (broadcastInDim S1x3 ![1] bcast_S3_S1x3_1 x6))

/-- The run's composed term is `result` of the launch arguments. -/
theorem res_eq (m : (ℓ : Loc nD τ sig) → Buf (Elt Ideal) ℓ) (c : Dev nD) :
    ValueP.res_main_v65 (F := Ideal) m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  unfold ValueP.res_main_v65
  rfl

end Cert.ReferenceIdeal.Terms

end
-- ==== Proof.LibEdgeIndex.lean ====
/-
  Row gather and row scatter-add read at an index.

  A table of N rows (each a row of D entries, or a single entry) is read through a column of M integer row numbers:
  * the gather produces, for position e, the row whose number is the e-th integer read as a signed number and
    clamped into [0, N - 1];
  * the accumulating scatter adds, into row v, every update row e whose integer, read as a signed number and NOT
    clamped, equals v; an integer outside [0, N) names no row and its update is dropped.
  Over the extended reals the accumulated value is the exact sum, so row v of the result is the old row plus the
  sum of the update rows over the set { e | integer e = v }.
-/
import Idealize.ShloMosaic.Lib.ValueIdx
import Idealize.ShloMosaic.PureOps.Ideal

noncomputable section

open scoped BigOperators

namespace Idealize.ShloMosaic.EdgeIndex

open Idealize.ShloMosaic Idealize.ShloMosaic.ValueIdx

theorem fin2_one_ne_zero : ¬ (1 : Fin 2) = 0 := by decide

/-- Two rank-2 indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

/-- Two rank-1 indices agree exactly when their coordinates do. -/
theorem ix1_eq_iff {n0 : Nat} (a a' : Fin n0) : ix1 a = ix1 a' ↔ a = a' :=
  ⟨fun h => congrFun h 0, fun h => by rw [h]⟩

/-! ## Gather of whole rows of an [N, D] table at an [M, 1] column of row numbers -/

section RowGather
variable {α : Type}

/-- The dimension numbers of x[idx] for x : [N, D] and idx : [M] (as an [M, 1] column): result [M, D]. -/
abbrev rowGatherDims (N M D : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- Entry (e, k) of the gathered array is entry k of the row numbered by the e-th integer, clamped. -/
theorem gather_row_apply {N M D w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (k : Fin D) :
    Host.gather (rowGatherDims N M D wf) x idx (ix2 e k)
      = x (ix2 ⟨min (idx (ix2 e 0)).toInt.toNat (N - 1), by omega⟩ k) := by
  have h0 : ((rowGatherDims N M D wf).operandIdx (ix2 e k) idx (0 : Fin 2)).val
      = min (idx (ix2 e 0)).toInt.toNat (N - 1) := by
    show (rowGatherDims N M D wf).start (ix2 e k) idx (0 : Fin 2) + (rowGatherDims N M D wf).batchCoord (ix2 e k) (0 : Fin 2)
      + (rowGatherDims N M D wf).offCoord (ix2 e k) (0 : Fin 2) = _
    rw [GatherDims.batchCoord_eq_zero _ _ _ List.not_mem_nil, Nat.add_zero,
      GatherDims.offCoord_eq_zero _ _ _ (fun h => ((GatherDims.mem_sKept _ _).mp h).1 (List.mem_singleton.mpr rfl)),
      Nat.add_zero]
    unfold GatherDims.start
    rw [dif_pos (show (0 : Fin 2) ∈ (rowGatherDims N M D wf).startIndexMap from List.mem_singleton.mpr rfl)]
    have hsi : (rowGatherDims N M D wf).siIdx (ix2 e k) ⟨List.idxOf (0 : Fin 2) (rowGatherDims N M D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  have h1 : ((rowGatherDims N M D wf).operandIdx (ix2 e k) idx (1 : Fin 2)).val = k.val := by
    show (rowGatherDims N M D wf).start (ix2 e k) idx (1 : Fin 2) + (rowGatherDims N M D wf).batchCoord (ix2 e k) (1 : Fin 2)
      + (rowGatherDims N M D wf).offCoord (ix2 e k) (1 : Fin 2) = _
    rw [GatherDims.batchCoord_eq_zero _ _ _ List.not_mem_nil, Nat.add_zero]
    have hs : (rowGatherDims N M D wf).start (ix2 e k) idx (1 : Fin 2) = 0 := by
      unfold GatherDims.start
      rw [dif_neg (fun h => absurd (List.mem_singleton.mp h) fin2_one_ne_zero)]
    rw [hs, Nat.zero_add]
    unfold GatherDims.offCoord
    rw [dif_pos ((GatherDims.mem_sKept _ _).mpr ⟨fun h => absurd (List.mem_singleton.mp h) fin2_one_ne_zero, List.not_mem_nil⟩)]
    rfl
  unfold Host.gather
  congr 1
  funext a
  refine Fin.ext ?_
  match a with
  | ⟨0, _⟩ => exact h0
  | ⟨1, _⟩ => exact h1

end RowGather

/-! ## Gather of single entries of an [N] table at an [M, 1] column of positions -/

section VecGather
variable {α : Type}

/-- The dimension numbers of x[idx] for x : [N] and idx : [M] (as an [M, 1] column): result [M]. -/
abbrev vecGatherDims (N M : Nat)
    (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry e of the gathered vector is the entry numbered by the e-th integer, clamped. -/
theorem gather_vec_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecGatherDims N M wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N M wf).start (ix1 e) idx 0 + (vecGatherDims N M wf).batchCoord (ix1 e) 0
      + (vecGatherDims N M wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N M wf).startIndexMap from List.mem_singleton.mpr rfl)]
  have hsi : (vecGatherDims N M wf).siIdx (ix1 e) ⟨List.idxOf (0 : Fin 1) (vecGatherDims N M wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

end VecGather

/-! ## Accumulating scatter of [M, D] update rows into an [N, D] table at an [M, 1] column of row numbers -/

section RowScatter

/-- The dimension numbers of x.at[idx].add(u) for x : [N, D], idx : [M] (as an [M, 1] column), u : [M, D]. -/
abbrev rowScatterDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Update entry (e, k) lands on entry (z, k) of the table, z the e-th integer read signed, when 0 ≤ z < N, and
    nowhere otherwise. -/
theorem resultIdx_row {N M D w : Nat}
    (wf : ScatterDims.WF ⟨2, ![N, D]⟩ ⟨2, ![M, 1]⟩ ⟨2, ![M, D]⟩ [1] [0] [0] 1)
    (idx : IVec ⟨2, ![M, 1]⟩ w) (e : Fin M) (k : Fin D) :
    (rowScatterDims N M D wf).resultIdx? (ix2 e k) idx =
      if h : 0 ≤ (idx (ix2 e 0)).toInt ∧ (idx (ix2 e 0)).toInt < (N : Int) then
        some (ix2 ⟨(idx (ix2 e 0)).toInt.toNat, by omega⟩ k) else none := by
  have hs0 : (rowScatterDims N M D wf).start (ix2 e k) idx (0 : Fin 2) = (idx (ix2 e 0)).toInt := by
    unfold ScatterDims.start
    rw [dif_pos (show (0 : Fin 2) ∈ (rowScatterDims N M D wf).scatterDimsToOperandDims from
      List.mem_singleton.mpr rfl)]
    have hsi : (rowScatterDims N M D wf).siIdx (ix2 e k)
        ⟨List.idxOf (0 : Fin 2) (rowScatterDims N M D wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (rowScatterDims N M D wf).window (ix2 e k) (0 : Fin 2) = 0 := by
    unfold ScatterDims.window
    rw [dif_neg (by simp [ScatterDims.sKept, Shape.kept])]
  have hs1 : (rowScatterDims N M D wf).start (ix2 e k) idx (1 : Fin 2) = 0 := by
    unfold ScatterDims.start
    rw [dif_neg (fun h => absurd (List.mem_singleton.mp h) fin2_one_ne_zero)]
  have hw1 : (rowScatterDims N M D wf).window (ix2 e k) (1 : Fin 2) = k.val := by
    unfold ScatterDims.window
    rw [dif_pos (by simp [ScatterDims.sKept, Shape.kept])]
    rfl
  unfold ScatterDims.resultIdx?
  by_cases h : 0 ≤ (idx (ix2 e 0)).toInt ∧ (idx (ix2 e 0)).toInt < (N : Int)
  · have hP0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) := by
      rw [hs0, hw0]; simpa using h
    have hP1 : 0 ≤ (rowScatterDims N M D wf).start (ix2 e k) idx (1 : Fin 2) + ((rowScatterDims N M D wf).window (ix2 e k) (1 : Fin 2) : Int)
        ∧ (rowScatterDims N M D wf).start (ix2 e k) idx (1 : Fin 2) + ((rowScatterDims N M D wf).window (ix2 e k) (1 : Fin 2) : Int) < (D : Int) := by
      rw [hs1, hw1]; exact ⟨by omega, by have := k.isLt; omega⟩
    have hall : ∀ a : Fin 2, 0 ≤ (rowScatterDims N M D wf).start (ix2 e k) idx a + ((rowScatterDims N M D wf).window (ix2 e k) a : Int)
        ∧ (rowScatterDims N M D wf).start (ix2 e k) idx a + ((rowScatterDims N M D wf).window (ix2 e k) a : Int)
          < (((⟨2, ![N, D]⟩ : Shape).size a : Nat) : Int) := fun a =>
      match a with
      | ⟨0, _⟩ => hP0
      | ⟨1, _⟩ => hP1
    rw [dif_pos hall, dif_pos h]
    congr 1
    funext a
    refine Fin.ext ?_
    match a with
    | ⟨0, _⟩ =>
      show ((rowScatterDims N M D wf).start (ix2 e k) idx (0 : Fin 2)
        + ((rowScatterDims N M D wf).window (ix2 e k) (0 : Fin 2) : Int)).toNat = (idx (ix2 e 0)).toInt.toNat
      rw [hs0, hw0]; simp
    | ⟨1, _⟩ =>
      show ((rowScatterDims N M D wf).start (ix2 e k) idx (1 : Fin 2)
        + ((rowScatterDims N M D wf).window (ix2 e k) (1 : Fin 2) : Int)).toNat = k.val
      rw [hs1, hw1]; simp
  · rw [dif_neg h, dif_neg]
    intro hall
    have h0 : 0 ≤ (rowScatterDims N M D wf).start (ix2 e k) idx (0 : Fin 2) + ((rowScatterDims N M D wf).window (ix2 e k) (0 : Fin 2) : Int)
        ∧ (rowScatterDims N M D wf).start (ix2 e k) idx (0 : Fin 2) + ((rowScatterDims N M D wf).window (ix2 e k) (0 : Fin 2) : Int) < (N : Int) :=
      hall 0
    rw [hs0, hw0] at h0
    exact h (by simpa using h0)

/-- Over the extended reals, entry (v, k) of the accumulated table is the old entry plus the sum of the update
    entries (e, k) over the positions e whose integer, read signed, is v. -/
theorem scatterAdd_row_apply {N M D w : Nat}
    (wf : ScatterDims.WF ⟨2, ![N, D]⟩ ⟨2, ![M, 1]⟩ ⟨2, ![M, D]⟩ [1] [0] [0] 1)
    (x : (⟨2, ![N, D]⟩ : Shape).Idx → EReal) (idx : IVec ⟨2, ![M, 1]⟩ w)
    (upd : (⟨2, ![M, D]⟩ : Shape).Idx → EReal) (v : Fin N) (k : Fin D) :
    Ideal.hostScatterAdd (rowScatterDims N M D wf) x idx upd (ix2 v k)
      = x (ix2 v k) + ∑ e ∈ Finset.univ.filter (fun e : Fin M => (idx (ix2 e 0)).toInt = (v.val : Int)), upd (ix2 e k) := by
  unfold Ideal.hostScatterAdd
  congr 1
  rw [Finset.sum_filter, sum_idx2, Finset.sum_filter]
  refine Finset.sum_congr rfl fun e _ => ?_
  by_cases hz : (idx (ix2 e 0)).toInt = (v.val : Int)
  · rw [if_pos hz]
    have hin : 0 ≤ (idx (ix2 e 0)).toInt ∧ (idx (ix2 e 0)).toInt < (N : Int) := by
      rw [hz]; exact ⟨by omega, by have := v.isLt; omega⟩
    rw [Finset.sum_eq_single k]
    · rw [if_pos]
      rw [resultIdx_row, dif_pos hin]
      congr 1
      rw [ix2_eq_iff]
      exact ⟨Fin.ext (by show (idx (ix2 e 0)).toInt.toNat = v.val; omega), rfl⟩
    · intro k' _ hk'
      rw [if_neg]
      rw [resultIdx_row, dif_pos hin]
      intro hh
      exact hk' ((ix2_eq_iff _ _ _ _).mp (Option.some.inj hh)).2
    · intro hk; exact absurd (Finset.mem_univ k) hk
  · rw [if_neg hz]
    refine Finset.sum_eq_zero fun k' _ => ?_
    rw [if_neg]
    rw [resultIdx_row]
    split
    · rename_i hin
      intro hh
      have := ((ix2_eq_iff _ _ _ _).mp (Option.some.inj hh)).1
      have hv : (idx (ix2 e 0)).toInt.toNat = v.val := congrArg Fin.val this
      exact hz (by omega)
    · intro hh; cases hh

end RowScatter

/-! ## Accumulating scatter of [M] updates into an [N] vector at an [M, 1] column of positions -/

section VecScatter

/-- The dimension numbers of x.at[idx].add(u) for x : [N], idx : [M] (as an [M, 1] column), u : [M]. -/
abbrev vecScatterDims (N M : Nat)
    (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update e lands on entry z of the vector, z the e-th integer read signed, when 0 ≤ z < N, and nowhere otherwise. -/
theorem resultIdx_vec {N M w : Nat}
    (wf : ScatterDims.WF ⟨1, ![N]⟩ ⟨2, ![M, 1]⟩ ⟨1, ![M]⟩ [] [0] [0] 1)
    (idx : IVec ⟨2, ![M, 1]⟩ w) (e : Fin M) :
    (vecScatterDims N M wf).resultIdx? (ix1 e) idx =
      if h : 0 ≤ (idx (ix2 e 0)).toInt ∧ (idx (ix2 e 0)).toInt < (N : Int) then
        some (ix1 ⟨(idx (ix2 e 0)).toInt.toNat, by omega⟩) else none := by
  have hs0 : (vecScatterDims N M wf).start (ix1 e) idx (0 : Fin 1) = (idx (ix2 e 0)).toInt := by
    unfold ScatterDims.start
    rw [dif_pos (show (0 : Fin 1) ∈ (vecScatterDims N M wf).scatterDimsToOperandDims from
      List.mem_singleton.mpr rfl)]
    have hsi : (vecScatterDims N M wf).siIdx (ix1 e)
        ⟨List.idxOf (0 : Fin 1) (vecScatterDims N M wf).scatterDimsToOperandDims,
          List.idxOf_lt_length_iff.2 (List.mem_singleton.mpr rfl)⟩ = ix2 e 0 := by
      funext b; refine Fin.ext ?_
      match b with
      | ⟨0, _⟩ => rfl
      | ⟨1, _⟩ => rfl
    rw [hsi]
  have hw0 : (vecScatterDims N M wf).window (ix1 e) (0 : Fin 1) = 0 := by
    unfold ScatterDims.window
    rw [dif_neg (by simp [ScatterDims.sKept, Shape.kept])]
  unfold ScatterDims.resultIdx?
  by_cases h : 0 ≤ (idx (ix2 e 0)).toInt ∧ (idx (ix2 e 0)).toInt < (N : Int)
  · have hP0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) := by
      rw [hs0, hw0]; simpa using h
    have hall : ∀ a : Fin 1, 0 ≤ (vecScatterDims N M wf).start (ix1 e) idx a + ((vecScatterDims N M wf).window (ix1 e) a : Int)
        ∧ (vecScatterDims N M wf).start (ix1 e) idx a + ((vecScatterDims N M wf).window (ix1 e) a : Int)
          < (((⟨1, ![N]⟩ : Shape).size a : Nat) : Int) := fun a =>
      match a with
      | ⟨0, _⟩ => hP0
    rw [dif_pos hall, dif_pos h]
    congr 1
    funext a
    refine Fin.ext ?_
    match a with
    | ⟨0, _⟩ =>
      show ((vecScatterDims N M wf).start (ix1 e) idx (0 : Fin 1)
        + ((vecScatterDims N M wf).window (ix1 e) (0 : Fin 1) : Int)).toNat = (idx (ix2 e 0)).toInt.toNat
      rw [hs0, hw0]; simp
  · rw [dif_neg h, dif_neg]
    intro hall
    have h0 : 0 ≤ (vecScatterDims N M wf).start (ix1 e) idx (0 : Fin 1) + ((vecScatterDims N M wf).window (ix1 e) (0 : Fin 1) : Int)
        ∧ (vecScatterDims N M wf).start (ix1 e) idx (0 : Fin 1) + ((vecScatterDims N M wf).window (ix1 e) (0 : Fin 1) : Int) < (N : Int) :=
      hall 0
    rw [hs0, hw0] at h0
    exact h (by simpa using h0)

/-- Over the extended reals, entry v of the accumulated vector is the old entry plus the sum of the updates over the
    positions e whose integer, read signed, is v. -/
theorem scatterAdd_vec_apply {N M w : Nat}
    (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w)
    (upd : (⟨1, ![M]⟩ : Shape).Idx → EReal) (v : Fin N) :
    Ideal.hostScatterAdd (vecScatterDims N M wf) x idx upd (ix1 v)
      = x (ix1 v) + ∑ e ∈ Finset.univ.filter (fun e : Fin M => (idx (ix2 e 0)).toInt = (v.val : Int)), upd (ix1 e) := by
  unfold Ideal.hostScatterAdd
  congr 1
  rw [Finset.sum_filter, Finset.sum_filter]
  rw [← Equiv.sum_comp (Equiv.ofBijective (fun e : Fin M => (ix1 e : (⟨1, ![M]⟩ : Shape).Idx))
    ⟨fun a b h => (ix1_eq_iff a b).mp h, fun j => ⟨j 0, (eq_ix1 j).symm⟩⟩)]
  refine Finset.sum_congr rfl fun e _ => ?_
  show (if (vecScatterDims N M wf).resultIdx? (ix1 e) idx = some (ix1 v) then upd (ix1 e) else 0) = _
  rw [resultIdx_vec]
  by_cases hz : (idx (ix2 e 0)).toInt = (v.val : Int)
  · have hin : 0 ≤ (idx (ix2 e 0)).toInt ∧ (idx (ix2 e 0)).toInt < (N : Int) := by
      rw [hz]; exact ⟨by omega, by have := v.isLt; omega⟩
    rw [dif_pos hin, if_pos hz, if_pos]
    congr 1
    rw [ix1_eq_iff]
    exact Fin.ext (by show (idx (ix2 e 0)).toInt.toNat = v.val; omega)
  · rw [if_neg hz, if_neg]
    split
    · intro hh
      have := (ix1_eq_iff _ _).mp (Option.some.inj hh)
      have hv : (idx (ix2 e 0)).toInt.toNat = v.val := congrArg Fin.val this
      exact hz (by omega)
    · intro hh; cases hh

end VecScatter

end Idealize.ShloMosaic.EdgeIndex

end
-- ==== Proof.LibBroadcastIn.lean ====
/-
  A host broadcast along named axes, read at an index, for the small shapes a per-row scale and a per-column bias
  take: a vector as a column, a column across the columns, a vector as a row, a row down the rows. Generic in the
  extents.
-/
import Idealize.ShloMosaic.Lib.Pipeline.Value
import Idealize.ShloMosaic.Lib.ValueIdx

noncomputable section

namespace Idealize.ShloMosaic.ValueIdx

variable {α : Type}

/-- A vector [a] as a column [a, 1]: entry (e, 0) is entry e. -/
theorem broadcastInDim_a_a1_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) := by
  refine broadcastInDim_apply ![0] h x (ix2 e u) (ix1 e) fun ax => ?_
  match ax with
  | ⟨0, _⟩ =>
    show e.val = if a = 1 then 0 else e.val
    have := e.isLt
    split <;> omega

/-- A column [a, 1] across b columns: entry (e, k) is entry (e, 0). -/
theorem broadcastInDim_a1_ab_apply {a b : ℕ} (x : (⟨2, ![a, 1]⟩ : Shape).Idx → α)
    (h : (⟨2, ![a, 1]⟩ : Shape).BroadcastsInDim ⟨2, ![a, b]⟩ ![0, 1]) (e : Fin a) (k : Fin b) :
    broadcastInDim ⟨2, ![a, b]⟩ ![0, 1] h x (ix2 e k) = x (ix2 e (0 : Fin 1)) := by
  refine broadcastInDim_apply ![0, 1] h x (ix2 e k) (ix2 e (0 : Fin 1)) fun ax => ?_
  match ax with
  | ⟨0, _⟩ =>
    show e.val = if a = 1 then 0 else e.val
    have := e.isLt
    split <;> omega
  | ⟨1, _⟩ =>
    show (0 : ℕ) = if (1 : ℕ) = 1 then 0 else k.val
    rw [if_pos rfl]

/-- A vector [b] as a row [1, b]: entry (0, k) is entry k. -/
theorem broadcastInDim_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    have := k.isLt
    split <;> omega

/-- A row [1, b] down a rows: entry (n, k) is entry (0, k). -/
theorem broadcastInDim_1b_ab_apply {a b : ℕ} (x : (⟨2, ![1, b]⟩ : Shape).Idx → α)
    (h : (⟨2, ![1, b]⟩ : Shape).BroadcastsInDim ⟨2, ![a, b]⟩ ![0, 1]) (n : Fin a) (k : Fin b) :
    broadcastInDim ⟨2, ![a, b]⟩ ![0, 1] h x (ix2 n k) = x (ix2 (0 : Fin 1) k) := by
  refine broadcastInDim_apply ![0, 1] h x (ix2 n k) (ix2 (0 : Fin 1) k) fun ax => ?_
  match ax with
  | ⟨0, _⟩ =>
    show (0 : ℕ) = if (1 : ℕ) = 1 then 0 else n.val
    rw [if_pos rfl]
  | ⟨1, _⟩ =>
    show k.val = if b = 1 then 0 else k.val
    have := k.isLt
    split <;> omega

end Idealize.ShloMosaic.ValueIdx

end
-- ==== Proof.AggregateRead.lean ====
/-
  "Gather the rows by source, add them into the rows of the targets", read at one entry, over the extended reals.

  A table of N rows is read through a column of M source numbers (a number names the row it is clamped to), and the
  gathered rows — as they are, or each scaled by its message's weight — are added into a table of zeros at the rows a
  column of M target numbers names (a number outside [0, N) names none). Entry (v, k) of the result is zero plus the
  sum, over the messages aimed at v, of entry k of the message's source row (times the message's weight).
  A message aimed at v has a nonnegative target number, so wrapping negative numbers leaves it alone and the row it
  names, clamped, is v itself.
-/
import proofs.«118779_j61306363183554_2_alg».proof.Proof.LibEdgeIndex
import proofs.«118779_j61306363183554_2_alg».proof.Proof.LibBroadcastIn
import Idealize.ShloMosaic.Lib.ValueIdx
import Idealize.ShloMosaic.Lib.Affine

noncomputable section

open scoped BigOperators

namespace Idealize.ShloMosaic.EdgeIndex

open Idealize.ShloMosaic Idealize.ShloMosaic.ValueIdx

/-- The row a number names when a gather reads it: the number as a signed integer, clamped into [0, N - 1]. -/
def rowOf {N : ℕ} (hN : 0 < N) (z : BitVec 32) : Fin N := ⟨min z.toInt.toNat (N - 1), by omega⟩

/-- The messages aimed at node v: those whose target number, as a signed integer, is v. -/
def aimedAt {N M : ℕ} (tgtCol : IVec ⟨2, ![M, 1]⟩ 32) (v : Fin N) : Finset (Fin M) :=
  Finset.univ.filter fun e : Fin M => (tgtCol (ix2 e 0)).toInt = (v.val : Int)

variable {N M D : ℕ} (hN : 0 < N)
  (wfS : ScatterDims.WF ⟨2, ![N, D]⟩ ⟨2, ![M, 1]⟩ ⟨2, ![M, D]⟩ [1] [0] [0] 1)
  (wfG : GatherDims.WF ⟨2, ![N, D]⟩ ⟨2, ![M, 1]⟩ ⟨2, ![M, D]⟩ [1] [0] [] [0] [] 1 ![1, D])

/-- Gathered rows added into the targets' rows, at (v, k). The dimension numbers are given as records equal to the
    standard ones, so that a program's own records fit without being unfolded. -/
theorem gathered_sum (dS : ScatterDims ⟨2, ![N, D]⟩ ⟨2, ![M, 1]⟩ ⟨2, ![M, D]⟩)
    (dG : GatherDims ⟨2, ![N, D]⟩ ⟨2, ![M, 1]⟩ ⟨2, ![M, D]⟩)
    (hS : dS = rowScatterDims N M D wfS) (hG : dG = rowGatherDims N M D wfG)
    (zero : FVec Ideal ⟨2, ![N, D]⟩ .f32) (hz : ∀ i, zero i = 0) (tgtCol srcCol : IVec ⟨2, ![M, 1]⟩ 32)
    (hs : FVec Ideal ⟨2, ![N, D]⟩ .f32) (v : Fin N) (k : Fin D) :
    Host.scatterAdd (F := Ideal) dS zero tgtCol (Host.gather dG hs srcCol) (ix2 v k)
      = 0 + ∑ e ∈ aimedAt tgtCol v, hs (ix2 (rowOf hN (srcCol (ix2 e 0))) k) := by
  subst hS hG
  show Ideal.hostScatterAdd (rowScatterDims N M D wfS) zero tgtCol _ (ix2 v k) = _
  rw [scatterAdd_row_apply, hz]
  refine congrArg (0 + ·) (Finset.sum_congr rfl fun e _ => ?_)
  exact gather_row_apply hN wfG hs srcCol e k

/-- Gathered rows, each scaled by its message's weight, added into the targets' rows, at (v, k). -/
theorem weighted_sum (dS : ScatterDims ⟨2, ![N, D]⟩ ⟨2, ![M, 1]⟩ ⟨2, ![M, D]⟩)
    (dG : GatherDims ⟨2, ![N, D]⟩ ⟨2, ![M, 1]⟩ ⟨2, ![M, D]⟩)
    (hS : dS = rowScatterDims N M D wfS) (hG : dG = rowGatherDims N M D wfG)
    (zero : FVec Ideal ⟨2, ![N, D]⟩ .f32) (hz : ∀ i, zero i = 0) (tgtCol srcCol : IVec ⟨2, ![M, 1]⟩ 32)
    (lin : FVec Ideal ⟨2, ![N, D]⟩ .f32) (w : FVec Ideal ⟨1, ![M]⟩ .f32)
    (hb1 : (⟨1, ![M]⟩ : Shape).BroadcastsInDim ⟨2, ![M, 1]⟩ ![0])
    (hb2 : (⟨2, ![M, 1]⟩ : Shape).BroadcastsInDim ⟨2, ![M, D]⟩ ![0, 1]) (v : Fin N) (k : Fin D) :
    Host.scatterAdd (F := Ideal) dS zero tgtCol
        (mulf (Host.gather dG lin srcCol)
          (broadcastInDim ⟨2, ![M, D]⟩ ![0, 1] hb2 (broadcastInDim ⟨2, ![M, 1]⟩ ![0] hb1 w))) (ix2 v k)
      = 0 + ∑ e ∈ aimedAt tgtCol v, lin (ix2 (rowOf hN (srcCol (ix2 e 0))) k) * w (ix1 e) := by
  subst hS hG
  show Ideal.hostScatterAdd (rowScatterDims N M D wfS) zero tgtCol _ (ix2 v k) = _
  rw [scatterAdd_row_apply, hz]
  refine congrArg (0 + ·) (Finset.sum_congr rfl fun e _ => ?_)
  rw [mulf_apply, gather_row_apply hN wfG, broadcastInDim_a1_ab_apply, broadcastInDim_a_a1_apply]
  rfl

/-- A factor per node read through a column of numbers, at message e. -/
theorem gathered_entry (wfV : GatherDims.WF ⟨1, ![N]⟩ ⟨2, ![M, 1]⟩ ⟨1, ![M]⟩ [] [0] [] [0] [] 1 ![1])
    (dV : GatherDims ⟨1, ![N]⟩ ⟨2, ![M, 1]⟩ ⟨1, ![M]⟩) (hV : dV = vecGatherDims N M wfV)
    (f : FVec Ideal ⟨1, ![N]⟩ .f32) (col : IVec ⟨2, ![M, 1]⟩ 32) (e : Fin M) :
    Host.gather dV f col (ix1 e) = f (ix1 (rowOf hN (col (ix2 e 0)))) := by
  subst hV
  exact gather_vec_apply hN wfV f col e

/-- A target number that equals v as a signed integer is not negative: the wrap leaves it, and clamped it names v. -/
theorem rowOf_wrap_of_aimed (z : BitVec 32) (v : Fin N) (hz : z.toInt = (v.val : Int)) (wrap : BitVec 32) :
    rowOf hN (Scalar.select (IntOp.cmpi .slt z 0#32) (IntOp.addi z wrap) z) = v := by
  have hneg : ¬ IntOp.cmpi .slt z 0#32 = (1 : BitVec 1) := by
    show ¬ IntOp.cmpi .slt z 0#32 = 1#1
    rw [IntOp.cmpi_slt, hz]
    simp
  unfold Scalar.select
  rw [if_neg hneg]
  apply Fin.ext
  show min z.toInt.toNat (N - 1) = v.val
  rw [hz]
  have := v.isLt
  simp only [Int.toNat_natCast]
  omega

end Idealize.ShloMosaic.EdgeIndex

end
-- ==== Proof.ScaleSum.lean ====
/-
  The one algebraic law that joins the two programs, on the extended reals.

  Each node v collects, over the edges e that point at v, the row of its source node scaled by a
  normalising factor. One program scales every summand by d(source e) · d(v); the other scales the
  summand by d(source e) only and multiplies the finished sum by d(v). The two agree because d(v) is
  a nonnegative REAL number: such a factor distributes over every sum of extended reals, whatever
  infinities the summands hold.

  The factor itself is 1/√deg where deg > 0 and 0 elsewhere; it is a nonnegative real for EVERY
  extended-real deg (an infinite degree gives 0, a positive real degree a positive real).
-/
import Idealize.ShloMosaic.PureOps.Ideal

noncomputable section

open scoped BigOperators

namespace Cert.ScaleSum

open Idealize.ShloMosaic

/-- A finite sum of extended reals times a nonnegative real: the factor moves inside the sum. -/
theorem sum_mul_of_nonneg_real {ι : Type} (s : Finset ι) (a : ι → EReal) {d : EReal} (h0 : 0 ≤ d) (ht : d ≠ ⊤) :
    (∑ e ∈ s, a e) * d = ∑ e ∈ s, a e * d := by
  classical
  induction s using Finset.induction_on with
  | empty => simp
  | insert x s hx ih =>
    rw [Finset.sum_insert hx, Finset.sum_insert hx, EReal.right_distrib_of_nonneg_of_ne_top h0 ht, ih]

/-- Summands scaled by the source's factor, the sum then scaled by the target's factor `d`, against summands scaled
    by the product of both factors — equal when the target's factor, read per edge, is `d` on the edges summed. -/
theorem scaled_sum_eq {ι : Type} (s : Finset ι) (a dr dc : ι → EReal) {d : EReal} (h0 : 0 ≤ d) (ht : d ≠ ⊤)
    (hc : ∀ e ∈ s, dc e = d) :
    (0 + ∑ e ∈ s, a e * dr e) * d = 0 + ∑ e ∈ s, a e * (dr e * dc e) := by
  rw [zero_add, zero_add, sum_mul_of_nonneg_real _ _ h0 ht]
  refine Finset.sum_congr rfl fun e he => ?_
  rw [hc e he, mul_assoc]

/-- The normalising factor of a degree: the inverse square root where the degree is positive, zero elsewhere. -/
def invSqrtPos (x : EReal) : EReal := Scalar.select (Ideal.cmp .ogt x 0) (Ideal.rsqrt x) 0

/-- It is a nonnegative real number at every extended-real degree. -/
theorem invSqrtPos_real (x : EReal) : ∃ r : ℝ, 0 ≤ r ∧ invSqrtPos x = (r : EReal) := by
  unfold invSqrtPos Scalar.select Ideal.cmp
  by_cases h : (0 : EReal) < x
  · have hb : BitVec.ofBool (decide ((0 : EReal) < x)) = 1 := by simp [h]
    simp only [hb, if_true]
    induction x using EReal.rec with
    | bot => exact absurd h (by simp)
    | top => exact ⟨0, le_rfl, by simp⟩
    | coe r =>
      have hr : 0 < r := by exact_mod_cast h
      refine ⟨(Real.sqrt r)⁻¹, by positivity, ?_⟩
      rw [Ideal.rsqrt_coe, if_neg (not_lt.mpr hr.le), if_neg hr.ne']
  · have hb : ¬ BitVec.ofBool (decide ((0 : EReal) < x)) = 1 := by simp [h]
    refine ⟨0, le_rfl, ?_⟩
    rw [if_neg hb]; simp

theorem invSqrtPos_nonneg (x : EReal) : 0 ≤ invSqrtPos x := by
  obtain ⟨r, hr, e⟩ := invSqrtPos_real x
  rw [e]; exact_mod_cast hr

theorem invSqrtPos_ne_top (x : EReal) : invSqrtPos x ≠ ⊤ := by
  obtain ⟨r, _, e⟩ := invSqrtPos_real x
  rw [e]; exact EReal.coe_ne_top r

end Cert.ScaleSum

end
-- ==== Proof.FactorReal.lean ====
/-
  The normalising factor as the host operations spell it — select(deg > 0, rsqrt(deg), 0), entry by entry — is a
  nonnegative real number at every entry, whatever extended real the degree is there.
-/
import proofs.«118779_j61306363183554_2_alg».proof.Proof.ScaleSum
import Idealize.ShloMosaic.PureOps.Ideal.Laws
import Idealize.ShloMosaic.Lib.ValueIdx

noncomputable section

namespace Cert.ScaleSum

open Idealize.ShloMosaic

theorem select_rsqrt_real {s : Shape} (d : FVec Ideal s .f32) (i : s.Idx) :
    0 ≤ Scalar.select (FloatOps.cmpf .ogt (d i) 0) (Host.rsqrt d i) 0
      ∧ Scalar.select (FloatOps.cmpf .ogt (d i) 0) (Host.rsqrt d i) 0 ≠ ⊤ := by
  show 0 ≤ invSqrtPos (d i) ∧ invSqrtPos (d i) ≠ ⊤
  exact ⟨invSqrtPos_nonneg _, invSqrtPos_ne_top _⟩

end Cert.ScaleSum

end
-- ==== Proof.EdgeReads.lean ====
/-
  The two programs' aggregations read at one entry, in one vocabulary.

  Both programs compute the same message sources, message targets and normalising factors from the edge list. With
  r(e) the row message e reads (its source number clamped) and "aimed at v" the messages whose target number is v:
  * the kernel's aggregation of a table hs, at (v, k), is 0 + Σ_{e aimed at v} hs(r(e), k);
  * the reference's weighted aggregation of a table lin, at (v, k), is
    0 + Σ_{e aimed at v} lin(r(e), k) · (factor(r(e)) · factor(t(e))), t(e) the row the message's target number names
    when a gather reads it — which, for a message aimed at v, is v;
  * the factor of a node is 1/√degree where the degree is positive and 0 elsewhere: a nonnegative real.
-/
import proofs.«118779_j61306363183554_2_alg».proof.Proof.KernelTerms
import proofs.«118779_j61306363183554_2_alg».proof.Proof.RefTerms
import proofs.«118779_j61306363183554_2_alg».proof.Proof.AggregateRead
import proofs.«118779_j61306363183554_2_alg».proof.Proof.ScaleSum
import proofs.«118779_j61306363183554_2_alg».proof.Proof.FactorReal
import proofs.«118779_j61306363183554_2_alg».proof.Proof.LibKeepdims
import Idealize.ShloMosaic.Lib.ValueLayout
import Idealize.ShloMosaic.PureOps.Ideal.Laws

set_option maxRecDepth 16384

noncomputable section

open scoped BigOperators

namespace Cert.EdgeReads

open Idealize.ShloMosaic Idealize.ShloMosaic.ValueIdx Idealize.ShloMosaic.EdgeIndex
open Cert.KernelIdeal Cert.KernelIdeal.Gen Cert.KernelIdeal.Terms

theorem nodes_pos : 0 < 100000 := by decide

/-! ## The two programs name the same ids, columns and factors -/

theorem ref_sourceIds : Cert.ReferenceIdeal.Terms.sourceIds = sourceIds := rfl
theorem ref_targetIds : Cert.ReferenceIdeal.Terms.targetIds = targetIds := rfl
theorem ref_targetColumnOf : Cert.ReferenceIdeal.Terms.targetColumnOf = targetColumnOf := rfl
theorem ref_sourceColumnOf : Cert.ReferenceIdeal.Terms.sourceColumnOf = sourceColumnOf := rfl
theorem ref_factor : Cert.ReferenceIdeal.Terms.factor = factor := rfl

/-! ## Tables of zeros -/

theorem zero_wide (i : S100000x128.Idx) :
    broadcastInDim S100000x128 ![] bcast_S_S100000x128 (constant (F := Ideal) S_ .f32 0x00000000#32) i = 0 :=
  Ideal.ofBits_zero_f32

theorem zero_narrow (i : S100000x3.Idx) :
    broadcastInDim S100000x3 ![] bcast_S_S100000x3 (constant (F := Ideal) S_ .f32 0x00000000#32) i = 0 :=
  Ideal.ofBits_zero_f32

/-! ## The kernel's aggregations -/

theorem aggregateWide_apply (s t : IVec S1700000 32) (hs : FVec Ideal S100000x128 .bf16) (v : Fin 100000) (k : Fin 128) :
    aggregateWideOf s t hs (ix2 v k)
      = 0 + ∑ e ∈ aimedAt (targetColumnOf t) v, hs (ix2 (rowOf nodes_pos (sourceColumnOf s (ix2 e 0))) k) := by
  unfold aggregateWideOf
  rw [show extf .f32 (Host.gather gather_S100000x128_S1700000x1_S1700000x128_1_0_n_n_0_1_1128 hs (sourceColumnOf s)) bitsLt_bf16_f32
      = Host.gather gather_S100000x128_S1700000x1_S1700000x128_1_0_n_n_0_1_1128 hs (sourceColumnOf s) from rfl]
  exact gathered_sum nodes_pos _ _ scatter_S100000x128_S1700000x1_S1700000x128_1_0_0_1
    gather_S100000x128_S1700000x1_S1700000x128_1_0_n_n_0_1_1128 rfl rfl _ zero_wide _ _ hs v k

theorem aggregateNarrow_apply (s t : IVec S1700000 32) (hs : FVec Ideal S100000x3 .f32) (v : Fin 100000) (k : Fin 3) :
    aggregateNarrowOf s t hs (ix2 v k)
      = 0 + ∑ e ∈ aimedAt (targetColumnOf t) v, hs (ix2 (rowOf nodes_pos (sourceColumnOf s (ix2 e 0))) k) := by
  unfold aggregateNarrowOf
  exact gathered_sum nodes_pos _ _ scatter_S100000x3_S1700000x1_S1700000x3_1_0_0_1
    gather_S100000x3_S1700000x1_S1700000x3_1_0_n_n_0_1_13 rfl rfl _ zero_narrow _ _ hs v k

/-! ## The reference's weighted aggregations -/

theorem ref_weightedWide_apply (t : IVec S1700000x1 32) (s : IVec S1700000x1 32) (lin : FVec Ideal S100000x128 .f32)
    (w : FVec Ideal S1700000 .f32) (v : Fin 100000) (k : Fin 128) :
    Host.scatterAdd Cert.ReferenceIdeal.scatter_S100000x128_S1700000x1_S1700000x128_1_0_0_1
        (broadcastInDim S100000x128 ![] Cert.ReferenceIdeal.Facts₀.bcast_S_S100000x128 (constant (F := Ideal) S_ .f32 0x00000000#32)) t
        (mulf (Host.gather Cert.ReferenceIdeal.gather_S100000x128_S1700000x1_S1700000x128_1_0_n_n_0_1_1128 lin s)
          (broadcastInDim Cert.ReferenceIdeal.S1700000x128 ![0, 1] Cert.ReferenceIdeal.Facts₀.bcast_S1700000x1_S1700000x128_0_1
            (broadcastInDim S1700000x1 ![0] Cert.ReferenceIdeal.Facts₀.bcast_S1700000_S1700000x1_0 w))) (ix2 v k)
      = 0 + ∑ e ∈ aimedAt t v, lin (ix2 (rowOf nodes_pos (s (ix2 e 0))) k) * w (ix1 e) :=
  weighted_sum nodes_pos _ _ Cert.ReferenceIdeal.scatter_S100000x128_S1700000x1_S1700000x128_1_0_0_1
    Cert.ReferenceIdeal.gather_S100000x128_S1700000x1_S1700000x128_1_0_n_n_0_1_1128 rfl rfl _ zero_wide t s lin w _ _ v k

theorem ref_weightedNarrow_apply (t : IVec S1700000x1 32) (s : IVec S1700000x1 32) (lin : FVec Ideal S100000x3 .f32)
    (w : FVec Ideal S1700000 .f32) (v : Fin 100000) (k : Fin 3) :
    Host.scatterAdd Cert.ReferenceIdeal.scatter_S100000x3_S1700000x1_S1700000x3_1_0_0_1
        (broadcastInDim S100000x3 ![] Cert.ReferenceIdeal.Facts₀.bcast_S_S100000x3 (constant (F := Ideal) S_ .f32 0x00000000#32)) t
        (mulf (Host.gather Cert.ReferenceIdeal.gather_S100000x3_S1700000x1_S1700000x3_1_0_n_n_0_1_13 lin s)
          (broadcastInDim S1700000x3 ![0, 1] Cert.ReferenceIdeal.Facts₀.bcast_S1700000x1_S1700000x3_0_1
            (broadcastInDim S1700000x1 ![0] Cert.ReferenceIdeal.Facts₀.bcast_S1700000_S1700000x1_0 w))) (ix2 v k)
      = 0 + ∑ e ∈ aimedAt t v, lin (ix2 (rowOf nodes_pos (s (ix2 e 0))) k) * w (ix1 e) :=
  weighted_sum nodes_pos _ _ Cert.ReferenceIdeal.scatter_S100000x3_S1700000x1_S1700000x3_1_0_0_1
    Cert.ReferenceIdeal.gather_S100000x3_S1700000x1_S1700000x3_1_0_n_n_0_1_13 rfl rfl _ zero_narrow t s lin w _ _ v k

/-- A message's weight: the factor of the row its source number names times the factor of the row its target number
    names. -/
theorem ref_messageWeight_apply (x1 : IVec S2x1600000 32) (e : Fin 1700000) :
    Cert.ReferenceIdeal.Terms.messageWeight x1 (ix1 e)
      = factor x1 (ix1 (rowOf nodes_pos (sourceColumnOf (sourceIds x1) (ix2 e 0))))
        * factor x1 (ix1 (rowOf nodes_pos (sourceColumnOf (targetIds x1) (ix2 e 0)))) := by
  unfold Cert.ReferenceIdeal.Terms.messageWeight
  rw [ref_factor, ref_sourceColumnOf, ref_sourceIds, ref_targetIds, mulf_apply]
  exact congrArg₂ (· * ·)
    (gathered_entry nodes_pos _ Cert.ReferenceIdeal.gather_S100000_S1700000x1_S1700000_n_0_n_n_0_1_1 rfl (factor x1) _ e)
    (gathered_entry nodes_pos _ Cert.ReferenceIdeal.gather_S100000_S1700000x1_S1700000_n_0_n_n_0_1_1 rfl (factor x1) _ e)

/-! ## The factor -/

/-- The factor of a node is a nonnegative real number: it is the inverse square root of the node's degree where that
    is positive and zero elsewhere, and that is a nonnegative real for every extended-real degree. -/
theorem factor_real (x1 : IVec S2x1600000 32) (i : S100000.Idx) : 0 ≤ factor x1 i ∧ factor x1 i ≠ ⊤ := by
  have hz : broadcastInDim S100000 ![] bcast_S_S100000 (constant (F := Ideal) S_ .f32 0x00000000#32) i = 0 :=
    Ideal.ofBits_zero_f32
  have hz' : broadcastInDim S100000 ![] bcast_S_S100000 (id (constant (F := Ideal) S_ .f32 0x00000000#32)) i = 0 :=
    Ideal.ofBits_zero_f32
  unfold factor
  rw [select_apply, cmpf_apply, hz, hz']
  generalize degree x1 = d
  exact Cert.ScaleSum.select_rsqrt_real d i

theorem factor_nonneg (x1 : IVec S2x1600000 32) (i : S100000.Idx) : 0 ≤ factor x1 i := (factor_real x1 i).1

theorem factor_ne_top (x1 : IVec S2x1600000 32) (i : S100000.Idx) : factor x1 i ≠ ⊤ := (factor_real x1 i).2

/-- The factor column at row n is the factor of n. -/
theorem factorColumn_apply (x1 : IVec S2x1600000 32) (n : Fin 100000) (u : Fin 1) :
    factorColumn x1 (ix2 n u) = factor x1 (ix1 n) := by
  unfold factorColumn
  exact shapeCast_a_a1_apply _ _ n u

/-! ## A message aimed at v names v -/

theorem targetColumn_apply (t : IVec S1700000 32) (e : Fin 1700000) (u : Fin 1) :
    targetColumnOf t (ix2 e u) = t (ix1 e) := by
  unfold targetColumnOf
  exact broadcastInDim_a_a1_apply _ _ e u

theorem sourceColumn_apply (s : IVec S1700000 32) (e : Fin 1700000) (u : Fin 1) :
    sourceColumnOf s (ix2 e u)
      = Scalar.select (IntOp.cmpi .slt (s (ix1 e)) 0#32) (IntOp.addi (s (ix1 e)) 100000#32) (s (ix1 e)) := by
  unfold sourceColumnOf
  exact broadcastInDim_a_a1_apply _ _ e u

/-- For a message aimed at v, the row its target number names when a gather reads it is v. -/
theorem target_row_of_aimed (t : IVec S1700000 32) (v : Fin 100000) (e : Fin 1700000)
    (he : e ∈ aimedAt (targetColumnOf t) v) : rowOf nodes_pos (sourceColumnOf t (ix2 e 0)) = v := by
  have hz : (t (ix1 e)).toInt = (v.val : Int) := by
    have := (Finset.mem_filter.mp he).2
    rwa [targetColumn_apply] at this
  rw [sourceColumn_apply]
  exact rowOf_wrap_of_aimed nodes_pos _ v hz _

end Cert.EdgeReads

end
-- ==== Proof.LibHostDot.lean ====
/-
  The host's plain matrix product read at an index, over the extended reals, for a program's own record of
  dimension numbers: entry (a, b) of l @ r is the sum over k of l(a, k) · r(k, b). Generic in the extents.
-/
import proofs.«118779_j61306363183554_2_alg».proof.Proof.LibMatmul

noncomputable section

open scoped BigOperators

namespace Idealize.ShloMosaic.MatmulIdx

open Idealize.ShloMosaic Idealize.ShloMosaic.ValueIdx

theorem host_dot_ix2 {A K B : Nat} (wf : DotDims.WF ⟨2, ![A, K]⟩ ⟨2, ![K, B]⟩ ⟨2, ![A, B]⟩ [1] [0] [0] [1] [] [])
    (d : DotDims ⟨2, ![A, K]⟩ ⟨2, ![K, B]⟩ ⟨2, ![A, B]⟩) (hd : d = mmDims A K B wf) {φ₁ φ₂ : FTy}
    (prec : Option ContractPrecision) (l : FVec Ideal ⟨2, ![A, K]⟩ φ₁) (r : FVec Ideal ⟨2, ![K, B]⟩ φ₂) (a : Fin A) (b : Fin B) :
    Host.dotGeneral (F := Ideal) d prec l r (ix2 a b) = ∑ k : Fin K, l (ix2 a k) * r (ix2 k b) := by
  subst hd
  simp only [Host.dotGeneral]
  exact dotGeneral_ix2 wf prec _ l r a b

end Idealize.ShloMosaic.MatmulIdx

end
-- ==== Proof.Bridge.lean ====
/-
  The idealized kernel and the idealized reference compute the same result, entry by entry.

  Write f(n) for the normalising factor of node n, r(e) for the row message e reads and "aimed at v" for the messages
  whose target is v. With P(n, j) = Σ_i x(n,i)·W(i,j) the plain product of a layer:
    kernel:     ( 0 + Σ_{e aimed at v} P(r(e), j) · f(r(e)) ) · f(v) + b(j)
    reference:    0 + Σ_{e aimed at v} P(r(e), j) · ( f(r(e)) · f(t(e)) ) + b(j),   t(e) = v on the messages summed.
  f(v) is a nonnegative real, so it moves inside the sum: the two agree. The first layer's product is over the
  features and the material parameters side by side in the reference and as two products added in the kernel: one sum
  over 136 positions split after the first 128. The first layer's results agree after the same maximum with zero, and
  the second layer is fed equal hidden features.
-/
import proofs.«118779_j61306363183554_2_alg».proof.Proof.EdgeReads
import proofs.«118779_j61306363183554_2_alg».proof.Proof.LibHostDot
import Idealize.ShloMosaic.Lib.Pipeline.Value
import Idealize.ShloMosaic.Lib.ValueLayout

set_option maxRecDepth 16384

noncomputable section

open scoped BigOperators

namespace Cert.Bridge

open Idealize.ShloMosaic Idealize.ShloMosaic.ValueIdx Idealize.ShloMosaic.EdgeIndex Idealize.ShloMosaic.MatmulIdx
open Cert.KernelIdeal Cert.KernelIdeal.Gen Cert.KernelIdeal.Terms Cert.EdgeReads Cert.ScaleSum

variable (x0 : FVec Ideal S100000x128 .f32) (x1 : IVec S2x1600000 32) (x2 : FVec Ideal S100000x8 .f32)
  (x3 : FVec Ideal S136x128 .f32) (x4 : FVec Ideal S128 .f32) (x5 : FVec Ideal S128x3 .f32) (x6 : FVec Ideal S3 .f32)

/-- The first layer's plain product at (n, j): the features against the first 128 weight rows plus the material
    parameters against the last 8. -/
def product1 (n : Fin 100000) (j : Fin 128) : EReal :=
  (∑ i : Fin 128, x0 (ix2 n i) * extractStridedSlice S128x128 ![0, 0] x3 slices_S136x128_S128x128_0_0 (ix2 i j))
    + ∑ i : Fin 8, x2 (ix2 n i) * extractStridedSlice S8x128 ![128, 0] x3 slices_S136x128_S8x128_128_0 (ix2 i j)

/-- The row message e reads. -/
def readRow (e : Fin 1700000) : Fin 100000 := rowOf nodes_pos (sourceColumnOf (sourceIds x1) (ix2 e 0))

/-- The reference's first product at (n, j): one sum over the 136 joined positions, split after the first 128. -/
theorem ref_linear1_apply (n : Fin 100000) (j : Fin 128) :
    Cert.ReferenceIdeal.Terms.linear1 x0 x2 x3 (ix2 n j) = product1 x0 x2 x3 n j := by
  unfold Cert.ReferenceIdeal.Terms.linear1 product1
  refine (host_dot_ix2 (A := 100000) (K := 136) (B := 128) _
    Cert.ReferenceIdeal.dot_S100000x136_S136x128_S100000x128_1_0_0_1_n_n rfl none _ x3 n j).trans ?_
  refine (Fin.sum_univ_add (a := 128) (b := 8) _).trans ?_
  refine congrArg₂ (· + ·) (Finset.sum_congr rfl fun i _ => ?_) (Finset.sum_congr rfl fun i _ => ?_)
  · refine congrArg₂ (· * ·) ?_ ?_
    · exact concatenate_pair_apply_left (t := Cert.ReferenceIdeal.S100000x136) (s₁ := Cert.ReferenceIdeal.S100000x128) (s₂ := Cert.ReferenceIdeal.S100000x8) 1 x0 x2
        Cert.ReferenceIdeal.Facts₀.concatenates_S100000x128_S100000x8_S100000x136_d1
        (ix2 n (Fin.castAdd 8 i) : Cert.ReferenceIdeal.S100000x136.Idx) rfl (ix2 n i) (fun b => by
          match b with
          | ⟨0, _⟩ => rfl
          | ⟨1, _⟩ => rfl)
    · exact (extractStridedSlice_apply (s := S136x128) (t := S128x128) ![0, 0] x3 slices_S136x128_S128x128_0_0 (ix2 i j)
        (ix2 (Fin.castAdd 8 i) j : S136x128.Idx) (fun a => by
          match a with
          | ⟨0, _⟩ => show (Fin.castAdd 8 i).val = 0 + i.val; exact (Nat.zero_add _).symm
          | ⟨1, _⟩ => show j.val = 0 + j.val; exact (Nat.zero_add _).symm)).symm
  · refine congrArg₂ (· * ·) ?_ ?_
    · exact concatenate_pair_apply_right (t := Cert.ReferenceIdeal.S100000x136) (s₁ := Cert.ReferenceIdeal.S100000x128) (s₂ := Cert.ReferenceIdeal.S100000x8) 1 x0 x2
        Cert.ReferenceIdeal.Facts₀.concatenates_S100000x128_S100000x8_S100000x136_d1
        (ix2 n (Fin.natAdd 128 i) : Cert.ReferenceIdeal.S100000x136.Idx) rfl rfl (ix2 n i) (fun b hb => by
          match b with
          | ⟨0, _⟩ => rfl
          | ⟨1, _⟩ => exact absurd rfl hb) (by show i.val + 128 = 128 + i.val; omega)
    · exact (extractStridedSlice_apply (s := S136x128) (t := S8x128) ![128, 0] x3 slices_S136x128_S8x128_128_0 (ix2 i j)
        (ix2 (Fin.natAdd 128 i) j : S136x128.Idx) (fun a => by
          match a with
          | ⟨0, _⟩ => show (Fin.natAdd 128 i).val = 128 + i.val; rfl
          | ⟨1, _⟩ => show j.val = 0 + j.val; exact (Nat.zero_add _).symm)).symm

/-- The reference's hidden features at (n, j). -/
theorem ref_hidden_apply (n : Fin 100000) (j : Fin 128) :
    Cert.ReferenceIdeal.Terms.hidden x0 x1 x2 x3 x4 (ix2 n j)
      = max ((0 + ∑ e ∈ aimedAt (Cert.ReferenceIdeal.Terms.targetColumnOf (Cert.ReferenceIdeal.Terms.targetIds x1)) n,
          Cert.ReferenceIdeal.Terms.linear1 x0 x2 x3 (ix2 (rowOf nodes_pos (Cert.ReferenceIdeal.Terms.sourceColumnOf (Cert.ReferenceIdeal.Terms.sourceIds x1) (ix2 e 0))) j)
            * Cert.ReferenceIdeal.Terms.messageWeight x1 (ix1 e)) + x4 (ix1 j)) 0 := by
  unfold Cert.ReferenceIdeal.Terms.hidden
  rw [maximumf_apply, addf_apply]
  exact congrArg₂ max
    (congrArg₂ (· + ·) (ref_weightedWide_apply _ _ _ _ n j)
      ((broadcastInDim_1b_ab_apply _ _ n j).trans (broadcastInDim_b_1b_apply _ _ 0 j)))
    Ideal.ofBits_zero_f32

/-- The kernel's hidden features at (n, j). -/
theorem ker_hidden_apply (n : Fin 100000) (j : Fin 128) :
    Terms.hidden x0 x1 x2 x3 x4 (ix2 n j)
      = max ((0 + ∑ e ∈ aimedAt (targetColumnOf (targetIds x1)) n,
          product1 x0 x2 x3 (readRow x1 e) j * factor x1 (ix1 (readRow x1 e))) * factor x1 (ix1 n) + x4 (ix1 j)) 0 := by
  unfold Terms.hidden Layer2.biasRectify
  show max (aggregateWideOf _ _ _ (ix2 n j) * factorColumn x1 (ix2 n (0 : Fin 1)) + shapeCast _ x4 shapeCasts_S128_S1x128 (ix2 (0 : Fin 1) j)) 0 = _
  rw [aggregateWide_apply, factorColumn_apply, shapeCast_a_1a_apply]
  refine congrArg₂ max (congrArg₂ (· + ·) (congrArg₂ (· * ·) (congrArg (0 + ·) (Finset.sum_congr rfl fun e _ => ?_)) rfl) rfl) rfl
  show product1 x0 x2 x3 (readRow x1 e) j * factorColumn x1 (ix2 (readRow x1 e) (0 : Fin 1)) = _
  rw [factorColumn_apply]

/-- The two programs' hidden features are equal. -/
theorem hidden_eq : Cert.ReferenceIdeal.Terms.hidden x0 x1 x2 x3 x4 = Terms.hidden x0 x1 x2 x3 x4 := by
  funext i
  obtain ⟨n, j, rfl⟩ : ∃ (n : Fin 100000) (j : Fin 128), i = ix2 n j := ⟨i 0, i 1, eq_ix2 i⟩
  rw [ref_hidden_apply, ker_hidden_apply, ref_targetColumnOf, ref_targetIds, ref_sourceColumnOf, ref_sourceIds]
  refine congrArg₂ max (congrArg₂ (· + ·) ?_ rfl) rfl
  refine Eq.trans (congrArg (0 + ·) (Finset.sum_congr rfl fun e _ => ?_))
    (scaled_sum_eq (aimedAt (targetColumnOf (targetIds x1)) n) (fun e => product1 x0 x2 x3 (readRow x1 e) j)
      (fun e => factor x1 (ix1 (readRow x1 e)))
      (fun e => factor x1 (ix1 (rowOf nodes_pos (sourceColumnOf (targetIds x1) (ix2 e 0)))))
      (factor_nonneg x1 _) (factor_ne_top x1 _)
      (fun e he => by rw [target_row_of_aimed (targetIds x1) n e he])).symm
  rw [ref_linear1_apply, ref_messageWeight_apply]
  rfl

/-- The second layer's plain product at (n, k). -/
def product2 (n : Fin 100000) (k : Fin 3) : EReal :=
  ∑ j : Fin 128, Terms.hidden x0 x1 x2 x3 x4 (ix2 n j) * x5 (ix2 j k)

/-- The reference's result at (v, k). -/
theorem ref_result_apply (v : Fin 100000) (k : Fin 3) :
    Cert.ReferenceIdeal.Terms.result x0 x1 x2 x3 x4 x5 x6 (ix2 v k)
      = (0 + ∑ e ∈ aimedAt (Cert.ReferenceIdeal.Terms.targetColumnOf (Cert.ReferenceIdeal.Terms.targetIds x1)) v,
          Host.dotGeneral Cert.ReferenceIdeal.dot_S100000x128_S128x3_S100000x3_1_0_0_1_n_n none (Cert.ReferenceIdeal.Terms.hidden x0 x1 x2 x3 x4) x5
              (ix2 (rowOf nodes_pos (Cert.ReferenceIdeal.Terms.sourceColumnOf (Cert.ReferenceIdeal.Terms.sourceIds x1) (ix2 e 0))) k)
            * Cert.ReferenceIdeal.Terms.messageWeight x1 (ix1 e)) + x6 (ix1 k) := by
  unfold Cert.ReferenceIdeal.Terms.result
  rw [addf_apply]
  exact congrArg₂ (· + ·) (ref_weightedNarrow_apply _ _ _ _ v k)
    ((broadcastInDim_1b_ab_apply _ _ v k).trans (broadcastInDim_b_1b_apply _ _ 0 k))

/-- The kernel's result at (v, k). -/
theorem ker_result_apply (v : Fin 100000) (k : Fin 3) :
    Terms.result x0 x1 x2 x3 x4 x5 x6 (ix2 v k)
      = (0 + ∑ e ∈ aimedAt (targetColumnOf (targetIds x1)) v,
          product2 x0 x1 x2 x3 x4 x5 (readRow x1 e) k * factor x1 (ix1 (readRow x1 e))) * factor x1 (ix1 v) + x6 (ix1 k) := by
  unfold Terms.result closeOf
  rw [addf_apply, mulf_apply, aggregateNarrow_apply, broadcastInDim_a1_ab_apply, factorColumn_apply]
  refine congrArg₂ (· + ·) (congrArg₂ (· * ·) (congrArg (0 + ·) (Finset.sum_congr rfl fun e _ => ?_)) rfl)
    ((broadcastInDim_1b_ab_apply _ _ v k).trans (broadcastInDim_b_1b_apply _ _ 0 k))
  show product2 x0 x1 x2 x3 x4 x5 (readRow x1 e) k * factorColumn x1 (ix2 (readRow x1 e) (0 : Fin 1)) = _
  rw [factorColumn_apply]

/-- The two programs' results are equal. -/
theorem result_eq : Cert.ReferenceIdeal.Terms.result x0 x1 x2 x3 x4 x5 x6 = Terms.result x0 x1 x2 x3 x4 x5 x6 := by
  funext i
  obtain ⟨v, k, rfl⟩ : ∃ (v : Fin 100000) (k : Fin 3), i = ix2 v k := ⟨i 0, i 1, eq_ix2 i⟩
  rw [ref_result_apply, ker_result_apply, hidden_eq, ref_targetColumnOf, ref_targetIds, ref_sourceColumnOf, ref_sourceIds]
  refine congrArg₂ (· + ·) ?_ rfl
  refine Eq.trans (congrArg (0 + ·) (Finset.sum_congr rfl fun e _ => ?_))
    (scaled_sum_eq (aimedAt (targetColumnOf (targetIds x1)) v) (fun e => product2 x0 x1 x2 x3 x4 x5 (readRow x1 e) k)
      (fun e => factor x1 (ix1 (readRow x1 e)))
      (fun e => factor x1 (ix1 (rowOf nodes_pos (sourceColumnOf (targetIds x1) (ix2 e 0)))))
      (factor_nonneg x1 _) (factor_ne_top x1 _)
      (fun e he => by rw [target_row_of_aimed (targetIds x1) v e he])).symm
  rw [ref_messageWeight_apply]
  refine congrArg₂ (· * ·) ?_ rfl
  exact host_dot_ix2 (A := 100000) (K := 128) (B := 3) _
    Cert.ReferenceIdeal.dot_S100000x128_S128x3_S100000x3_1_0_0_1_n_n rfl none (Terms.hidden x0 x1 x2 x3 x4) x5 (readRow x1 e) k

end Cert.Bridge

end
-- ==== Proof.lean ====
/- Two graph-convolution layers over 100000 nodes and 1700000 messages (every edge, and a self loop per node), as a
   tiled kernel and as a plain reference, proved equal as extended reals.

   Each layer multiplies the node features by its weights, sends every message the row of its source, weights the
   message by the normalising factors of its source and of its target, adds the messages into the rows of their
   targets and adds a bias; the first layer ends with the maximum with zero. The factor of a node is 1/√degree where
   the degree is positive and 0 elsewhere. The reference weights each message by factor(source)·factor(target); the
   kernel scales the rows by the source's factor before they are gathered and the finished sum of row v by the factor
   of v. Because that factor is a nonnegative real number it distributes over the sum whatever the summands are
   (Proof/ScaleSum.lean), and on the messages aimed at v the target's factor is the factor of v: the two results agree
   entry by entry (Proof/Bridge.lean). No finiteness of the inputs is used.

   The kernel's side: its three launched regions each write one function of the arrays they find, row block by row
   block (Proof/Layer1Array.lean, Layer2Array.lean, Layer3Array.lean over Proof/KernelBlocks.lean); the result buffer's final
   contents fold back through the regions and the stretches of host operations to one term of the arguments
   (Proof/KernelFold.lean, Proof/KernelTerms.lean), which the run ends at (Proof/ResultRun.lean). The reference's side: its
   run ends at its operations' composed term (Proof/RefRunP.lean), named in stages (Proof/RefTerms.lean). Both terms are
   read at an entry in Proof/EdgeReads.lean over Proof/AggregateRead.lean. No operation of the kernel was rewritten by the
   idealization, so that conjunct is trivial. -/
import proofs.«118779_j61306363183554_2_alg».proof.Defs
import proofs.«118779_j61306363183554_2_alg».proof.Proof.Gen.Kernel
import proofs.«118779_j61306363183554_2_alg».proof.Proof.Gen.Kernel.Skeleton
import proofs.«118779_j61306363183554_2_alg».proof.Proof.Gen.Kernel.Launch
import proofs.«118779_j61306363183554_2_alg».proof.Proof.Gen.Kernel.Points
import proofs.«118779_j61306363183554_2_alg».proof.Proof.Gen.Kernel.Frame
import proofs.«118779_j61306363183554_2_alg».proof.Proof.Gen.KernelIdeal
import proofs.«118779_j61306363183554_2_alg».proof.Proof.Gen.KernelIdeal.Skeleton
import proofs.«118779_j61306363183554_2_alg».proof.Proof.Gen.KernelIdeal.Launch
import proofs.«118779_j61306363183554_2_alg».proof.Proof.Gen.KernelIdeal.Points
import proofs.«118779_j61306363183554_2_alg».proof.Proof.Gen.KernelIdeal.Frame
import proofs.«118779_j61306363183554_2_alg».proof.Proof.Gen.ReferenceIdeal
import proofs.«118779_j61306363183554_2_alg».proof.Proof.Gen.Pre_finite_inputs
import proofs.«118779_j61306363183554_2_alg».proof.Proof.ResultRun
import proofs.«118779_j61306363183554_2_alg».proof.Proof.KernelFold
import proofs.«118779_j61306363183554_2_alg».proof.Proof.RefRunP
import proofs.«118779_j61306363183554_2_alg».proof.Proof.RefTerms
import proofs.«118779_j61306363183554_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both idealized programs end with the kernel's term of the arguments in
    their result buffers. -/
theorem algebraic : Cert.algebraic_KernelIdeal_ReferenceIdeal := by
  intro m ρ m' ρ' _ hagree
  refine ⟨fun c => Cert.KernelIdeal.Terms.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result_eq m ρ c), (h c).2⟩) (Cert.KernelIdeal.ResultRun.run (F := Ideal) m ρ)
  · refine (θ_run Cert.ReferenceIdeal.defs _ _).mono (fun r h c => ⟨(h c).1.trans ?_, (h c).2⟩) (Cert.ReferenceIdeal.ValueP.run (F := Ideal) m' ρ')
    rw [Cert.ReferenceIdeal.Terms.res_eq, (hagree c).1, (hagree c).2.1, (hagree c).2.2.1, (hagree c).2.2.2.1, (hagree c).2.2.2.2.1,
      (hagree c).2.2.2.2.2.1, (hagree c).2.2.2.2.2.2]
    exact Cert.Bridge.result_eq _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
